-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x11 : Shape := ⟨2, ![50000, 11]⟩
abbrev S2x800000 : Shape := ⟨2, ![2, 800000]⟩
abbrev S50000 : Shape := ⟨1, ![50000]⟩
abbrev S11x128 : Shape := ⟨2, ![11, 128]⟩
abbrev S128 : Shape := ⟨1, ![128]⟩
abbrev S128x128 : Shape := ⟨2, ![128, 128]⟩
abbrev S128x19 : Shape := ⟨2, ![128, 19]⟩
abbrev S19 : Shape := ⟨1, ![19]⟩
abbrev S_ : Shape := ⟨0, ![]⟩

class Facts : Prop where
  bcast_S_S50000x11 : S_.BroadcastsInDim S50000x11 (![] : Fin 0 → Fin S50000x11.rank)
  reducesTo_S50000x11_S_d0_1 : S50000x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x19 : S_.BroadcastsInDim S128x19 (![] : Fin 0 → Fin S128x19.rank)
  reducesTo_S128x19_S_d0_1 : S128x19.ReducesTo [0, 1] S_
  bcast_S_S19 : S_.BroadcastsInDim S19 (![] : Fin 0 → Fin S19.rank)
  reducesTo_S19_S_d0 : S19.ReducesTo [0] S_

variable [Facts]

def fn_part2 {F : FTy → Type} [FloatOps F] (main_arg9 : FVec F S128x19 .f32) (main_arg10 : FVec F S19 .f32) (main_v33 : IVec S_ 1) : IVec S_ 1 :=
  let main_v34 : FVec F S128x19 .f32 := Host.absf main_arg9
  let main_cst_12 : FVec F S_ .f32 := constant S_ .f32 0x7F800000#32
  let main_v35 : FVec F S128x19 .f32 := broadcastInDim S128x19 ![] bcast_S_S128x19 main_cst_12
  let main_v36 : IVec S128x19 1 := cmpf .olt main_v34 main_v35
  let main_c_13 : IVec S_ 1 := constantI S_ 1 1#1
  let main_v37 : IVec S_ 1 := (fun x v => Host.reduce IntOp.andi x v reducesTo_S128x19_S_d0_1 h_S_) main_v36 main_c_13
  let main_v38 : IVec S_ 1 := andi main_v33 main_v37
  let main_v39 : FVec F S19 .f32 := Host.absf main_arg10
  let main_cst_14 : FVec F S_ .f32 := constant S_ .f32 0x7F800000#32
  let main_v40 : FVec F S19 .f32 := broadcastInDim S19 ![] bcast_S_S19 main_cst_14
  let main_v41 : IVec S19 1 := cmpf .olt main_v39 main_v40
  let main_c_15 : IVec S_ 1 := constantI S_ 1 1#1
  let main_v42 : IVec S_ 1 := (fun x v => Host.reduce IntOp.andi x v reducesTo_S19_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x19 .f32) (main_arg10 : FVec F S19 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x11 .f32) (main_arg1 : IVec S2x800000 32) (main_arg2 : IVec S50000 32) (main_arg3 : FVec F S11x128 .f32) (main_arg4 : FVec F S128 .f32) (main_arg5 : FVec F S128x128 .f32) (main_arg6 : FVec F S128 .f32) (main_arg7 : FVec F S128x128 .f32) (main_arg8 : FVec F S128 .f32) (main_arg9 : FVec F S128x19 .f32) (main_arg10 : FVec F S19 .f32) : IVec S_ 1 :=
  let main_v0 : FVec F S50000x11 .f32 := Host.absf main_arg0
  let main_cst : FVec F S_ .f32 := constant S_ .f32 0x7F800000#32
  let main_v1 : FVec F S50000x11 .f32 := broadcastInDim S50000x11 ![] bcast_S_S50000x11 main_cst
  let main_v2 : IVec S50000x11 1 := cmpf .olt main_v0 main_v1
  let main_c : IVec S_ 1 := constantI S_ 1 1#1
  let main_v3 : IVec S_ 1 := (fun x v => Host.reduce IntOp.andi x v reducesTo_S50000x11_S_d0_1 h_S_) main_v2 main_c
  let main_v4 : FVec F S11x128 .f32 := Host.absf main_arg3
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x11 : Shape := ⟨2, ![50000, 11]⟩
abbrev S2x800000 : Shape := ⟨2, ![2, 800000]⟩
abbrev S50000 : Shape := ⟨1, ![50000]⟩
abbrev S11x128 : Shape := ⟨2, ![11, 128]⟩
abbrev S128 : Shape := ⟨1, ![128]⟩
abbrev S128x128 : Shape := ⟨2, ![128, 128]⟩
abbrev S128x19 : Shape := ⟨2, ![128, 19]⟩
abbrev S19 : Shape := ⟨1, ![19]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S5000x11 : Shape := ⟨2, ![5000, 11]⟩
abbrev S5000x128 : Shape := ⟨2, ![5000, 128]⟩
abbrev S800000x128 : Shape := ⟨2, ![800000, 128]⟩
abbrev S5000x1 : Shape := ⟨2, ![5000, 1]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S1x19 : Shape := ⟨2, ![1, 19]⟩
abbrev S2048x19 : Shape := ⟨2, ![2048, 19]⟩

abbrev nBuf : Space → Nat
  | .hbm => 130
  | .vmem => 39
  | .smem => 0
  | _ => 0

abbrev hbmTy0_0 (i : Nat) : BufTy := match i % 128 with
  | 0 => ⟨S50000x11, .f32⟩
  | 1 => ⟨S2x800000, .i32⟩
  | 2 => ⟨S50000, .i32⟩
  | 3 => ⟨S11x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x19, .f32⟩
  | 10 => ⟨S19, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S50000, .f32⟩
  | 35 => ⟨S50000x1, .f32⟩
  | 36 => ⟨S1x128, .f32⟩
  | 37 => ⟨S1x128, .f32⟩
  | 38 => ⟨S1x128, .f32⟩
  | 39 => ⟨S50000x128, .f32⟩
  | 40 => ⟨S50000x1, .f32⟩
  | 41 => ⟨S50000x128, .f32⟩
  | 42 => ⟨S50000x128, .f32⟩
  | 43 => ⟨S50000x128, .bf16⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .bf16⟩
  | 53 => ⟨S800000x128, .f32⟩
  | 54 => ⟨S800000x1, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000x128, .f32⟩
  | 62 => ⟨S50000x1, .f32⟩
  | 63 => ⟨S50000x128, .f32⟩
  | 64 => ⟨S50000x128, .f32⟩
  | 65 => ⟨S50000x128, .bf16⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .bf16⟩
  | 75 => ⟨S800000x128, .f32⟩
  | 76 => ⟨S800000x1, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S50000x128, .f32⟩
  | 84 => ⟨S50000x1, .f32⟩
  | 85 => ⟨S50000x128, .f32⟩
  | 86 => ⟨S50000x128, .f32⟩
  | 87 => ⟨S50000x128, .bf16⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .bf16⟩
  | 97 => ⟨S800000x128, .f32⟩
  | 98 => ⟨S800000x1, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S50000x128, .f32⟩
  | 106 => ⟨S_, .f32⟩
  | 107 => ⟨S2048x128, .f32⟩
  | 108 => ⟨S50000x1, .i32⟩
  | 109 => ⟨S2048x128, .f32⟩
  | 110 => ⟨S_, .f32⟩
  | 111 => ⟨S50000, .f32⟩
  | 112 => ⟨S_, .f32⟩
  | 113 => ⟨S2048, .f32⟩
  | 114 => ⟨S50000x1, .i32⟩
  | 115 => ⟨S2048, .f32⟩
  | 116 => ⟨S2048x1, .f32⟩
  | 117 => ⟨S_, .f32⟩
  | 118 => ⟨S128x128, .f32⟩
  | 119 => ⟨S_, .i32⟩
  | 120 => ⟨S1, .i32⟩
  | 121 => ⟨S128x128, .f32⟩
  | 122 => ⟨S_, .f32⟩
  | 123 => ⟨S1x128, .f32⟩
  | 124 => ⟨S1x19, .f32⟩
  | 125 => ⟨S_, .i32⟩
  | 126 => ⟨S1, .i32⟩
  | 127 => ⟨S1x128, .f32⟩
  | _ => ⟨S50000x11, .f32⟩

abbrev hbmTy0_1 (i : Nat) : BufTy := match i % 128 with
  | 0 => ⟨S2048x128, .f32⟩
  | 1 => ⟨S2048x19, .f32⟩
  | _ => ⟨S50000x11, .f32⟩

abbrev hbmTy (i : Nat) : BufTy := match i / 128 with
  | 0 => hbmTy0_0 i
  | 1 => hbmTy0_1 i
  | _ => ⟨S50000x11, .f32⟩

abbrev bufTy : (tb : Table) → Fin (tcTables nBuf tb) → BufTy
  | .hbm, ⟨i, _⟩ => hbmTy i
  | .local _ .vmem, ⟨0, _⟩ => ⟨S5000x11, .f32⟩
  | .local _ .vmem, ⟨1, _⟩ => ⟨S5000x11, .f32⟩
  | .local _ .vmem, ⟨2, _⟩ => ⟨S11x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S2048x128, .f32⟩
  | .local _ .vmem, ⟨35, _⟩ => ⟨S2048x1, .f32⟩
  | .local _ .vmem, ⟨36, _⟩ => ⟨S128x128, .f32⟩
  | .local _ .vmem, ⟨37, _⟩ => ⟨S1x128, .f32⟩
  | .local _ .vmem, ⟨38, _⟩ => ⟨S2048x128, .f32⟩
  | _, _ => ⟨S50000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_9 : Ref sig .tc := ⟨.hbm, 88, rfl⟩
abbrev main_v66 : Ref sig .tc := ⟨.hbm, 89, rfl⟩
abbrev main_v67 : Ref sig .tc := ⟨.hbm, 90, rfl⟩
abbrev main_c_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_11 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_12 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_13 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_v89 : Ref sig .tc := ⟨.hbm, 118, rfl⟩
abbrev main_c_16 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_v92 : Ref sig .tc := ⟨.hbm, 123, rfl⟩
abbrev main_v93 : Ref sig .tc := ⟨.hbm, 124, rfl⟩
abbrev main_c_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem1_0 : DmaSem sig := 35
abbrev cc4_sem2_0 : DmaSem sig := 36
abbrev cc4_sem3_0 : DmaSem sig := 37
abbrev cc4_sem4_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S2048x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2048x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  inb_S5000x11_S5000x11_0_0 : ∀ a, (![0, 0] : Fin 2 → Nat) a + S5000x11.size a ≤ S5000x11.size a
  h_S5000x11 : 0 < S5000x11.numel
  bitsLt_bf16_f32 : FTy.bits .bf16 < FTy.bits .f32
  inb_S11x128_S11x128_0_0 : ∀ a, (![0, 0] : Fin 2 → Nat) a + S11x128.size a ≤ S11x128.size a
  h_S11x128 : 0 < S11x128.numel
  inb_S5000x128_S5000x128_0_0 : ∀ a, (![0, 0] : Fin 2 → Nat) a + S5000x128.size a ≤ S5000x128.size a
  h_S5000x128 : 0 < S5000x128.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S2048x128 : S_.BroadcastsInDim S2048x128 (![] : Fin 0 → Fin S2048x128.rank)
  bcast_S_S2048 : S_.BroadcastsInDim S2048 (![] : Fin 0 → Fin S2048.rank)
  shapeCasts_S2048_S2048x1 : S2048.ShapeCasts S2048x1
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  shapeCasts_S19_S1x19 : S19.ShapeCasts S1x19
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  shapeCasts_S128x128_S128x128 : S128x128.ShapeCasts S128x128
  broadcasts_S1x128_S2048x128 : S1x128.Broadcasts S2048x128
  slices_S2048x128_S2048x19_0_0 : S2048x128.Slices ![0, 0] S2048x19
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x11_S11x128_S5000x128_1_0_0_1_n_n_wf : DotDims.WF S5000x11 S11x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S2048x128_S50000x1_S50000x128_1_0_0_1_wf : ScatterDims.WF S2048x128 S50000x1 S50000x128 [1] [0] [0] 1
  scatter_S2048_S50000x1_S50000_n_0_0_1_wf : ScatterDims.WF S2048 S50000x1 S50000 [] [0] [0] 1
  scatter_S128x128_S1_S128x19_01_n_1_0_wf : ScatterDims.WF S128x128 S1 S128x19 [0, 1] [] [1] 0
  scatter_S1x128_S1_S1x19_01_n_1_0_wf : ScatterDims.WF S1x128 S1 S1x19 [0, 1] [] [1] 0
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S50000x11.size a
  hwx0_0 : ∀ i : grid0.Coords, EltTy.bits .f32 = 32 ∨ (Rect.block (s := S50000x11) S5000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S2048x128.size a
  hwx4_0 : ∀ i : grid4.Coords, EltTy.bits .f32 = 32 ∨ (Rect.block (s := S2048x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x1.size a ≤ S2048x1.size a
  hwx4_1 : ∀ i : grid4.Coords, EltTy.bits .f32 = 32 ∨ (Rect.block (s := S2048x1) S2048x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2048x128.size a ≤ S2048x128.size a
  hwx4_4 : ∀ i : grid4.Coords, EltTy.bits .f32 = 32 ∨ (Rect.block (s := S2048x128) S2048x128.size (cc4_transform_4 i) (hinb4_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x11_S11x128_S5000x128_1_0_0_1_n_n : DotDims S5000x11 S11x128 S5000x128 where
  lhsContracting := [1]
  rhsContracting := [0]
  lhsNonContracting := [0]
  rhsNonContracting := [1]
  lhsBatch := []
  rhsBatch := []
  wf := dot_S5000x11_S11x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2048x128_S50000x1_S50000x128_1_0_0_1 : ScatterDims S2048x128 S50000x1 S50000x128 where
  updateWindowDims := [1]
  insertedWindowDims := [0]
  scatterDimsToOperandDims := [0]
  indexVectorDim := 1
  wf := scatter_S2048x128_S50000x1_S50000x128_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def scatter_S128x128_S1_S128x19_01_n_1_0 : ScatterDims S128x128 S1 S128x19 where
  updateWindowDims := [0, 1]
  insertedWindowDims := []
  scatterDimsToOperandDims := [1]
  indexVectorDim := 0
  wf := scatter_S128x128_S1_S128x19_01_n_1_0_wf
def scatter_S1x128_S1_S1x19_01_n_1_0 : ScatterDims S1x128 S1 S1x19 where
  updateWindowDims := [0, 1]
  insertedWindowDims := []
  scatterDimsToOperandDims := [1]
  indexVectorDim := 0
  wf := scatter_S1x128_S1_S1x19_01_n_1_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v83) S2048x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v88) S2048x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v95) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S2048x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x11 : Shape := ⟨2, ![50000, 11]⟩
abbrev S2x800000 : Shape := ⟨2, ![2, 800000]⟩
abbrev S50000 : Shape := ⟨1, ![50000]⟩
abbrev S11x128 : Shape := ⟨2, ![11, 128]⟩
abbrev S128 : Shape := ⟨1, ![128]⟩
abbrev S128x128 : Shape := ⟨2, ![128, 128]⟩
abbrev S128x19 : Shape := ⟨2, ![128, 19]⟩
abbrev S19 : Shape := ⟨1, ![19]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S2048x19 : Shape := ⟨2, ![2048, 19]⟩
abbrev S1x19 : Shape := ⟨2, ![1, 19]⟩

abbrev nBuf : Space → Nat
  | .hbm => 203
  | .vmem => 0
  | .smem => 0
  | _ => 0

abbrev hbmTy0_0 (i : Nat) : BufTy := match i % 128 with
  | 0 => ⟨S50000x11, .f32⟩
  | 1 => ⟨S2x800000, .i32⟩
  | 2 => ⟨S50000, .i32⟩
  | 3 => ⟨S11x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x19, .f32⟩
  | 10 => ⟨S19, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S800000x1, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x1, .f32⟩
  | 112 => ⟨S800000x128, .f32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S50000, .f32⟩
  | 119 => ⟨S50000x1, .f32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x11, .f32⟩

abbrev hbmTy0_1 (i : Nat) : BufTy := match i % 128 with
  | 0 => ⟨S50000x128, .f32⟩
  | 1 => ⟨S50000x128, .f32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x1, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000, .f32⟩
  | 48 => ⟨S50000x1, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S2048x128, .f32⟩
  | 57 => ⟨S50000x1, .i32⟩
  | 58 => ⟨S2048x128, .f32⟩
  | 59 => ⟨S_, .f32⟩
  | 60 => ⟨S50000, .f32⟩
  | 61 => ⟨S_, .f32⟩
  | 62 => ⟨S2048, .f32⟩
  | 63 => ⟨S50000x1, .i32⟩
  | 64 => ⟨S2048, .f32⟩
  | 65 => ⟨S_, .f32⟩
  | 66 => ⟨S2048, .f32⟩
  | 67 => ⟨S2048, .f32⟩
  | 68 => ⟨S2048x1, .f32⟩
  | 69 => ⟨S2048x128, .f32⟩
  | 70 => ⟨S2048x128, .f32⟩
  | 71 => ⟨S2048x19, .f32⟩
  | 72 => ⟨S1x19, .f32⟩
  | 73 => ⟨S2048x19, .f32⟩
  | 74 => ⟨S2048x19, .f32⟩
  | _ => ⟨S50000x11, .f32⟩

abbrev hbmTy (i : Nat) : BufTy := match i / 128 with
  | 0 => hbmTy0_0 i
  | 1 => hbmTy0_1 i
  | _ => ⟨S50000x11, .f32⟩

abbrev bufTy : (tb : Table) → Fin (tcTables nBuf tb) → BufTy
  | .hbm, ⟨i, _⟩ => hbmTy i
  | _, _ => ⟨S50000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_c_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_25 : Ref sig .tc := ⟨.hbm, 159, rfl⟩
abbrev main_v117 : Ref sig .tc := ⟨.hbm, 160, rfl⟩
abbrev main_v118 : Ref sig .tc := ⟨.hbm, 161, rfl⟩
abbrev main_c_26 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_29 : Ref sig .tc := ⟨.hbm, 187, rfl⟩
abbrev main_v141 : Ref sig .tc := ⟨.hbm, 188, rfl⟩
abbrev main_cst_30 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_31 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S2048x128 : S_.BroadcastsInDim S2048x128 (![] : Fin 0 → Fin S2048x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S19_S1x19_1 : S19.BroadcastsInDim S1x19 (![1] : Fin 1 → Fin S1x19.rank)
  bcast_S1x19_S2048x19_0_1 : S1x19.BroadcastsInDim S2048x19 (![0, 1] : Fin 2 → Fin S2048x19.rank)
  dot_S50000x11_S11x128_S50000x128_1_0_0_1_n_n_wf : DotDims.WF S50000x11 S11x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S2048x128_S50000x1_S50000x128_1_0_0_1_wf : ScatterDims.WF S2048x128 S50000x1 S50000x128 [1] [0] [0] 1
  scatter_S2048_S50000x1_S50000_n_0_0_1_wf : ScatterDims.WF S2048 S50000x1 S50000 [] [0] [0] 1
  dot_S2048x128_S128x19_S2048x19_1_0_0_1_n_n_wf : DotDims.WF S2048x128 S128x19 S2048x19 [1] [0] [0] [1] [] []

variable [Facts₀]

def dot_S50000x11_S11x128_S50000x128_1_0_0_1_n_n : DotDims S50000x11 S11x128 S50000x128 where
  lhsContracting := [1]
  rhsContracting := [0]
  lhsNonContracting := [0]
  rhsNonContracting := [1]
  lhsBatch := []
  rhsBatch := []
  wf := dot_S50000x11_S11x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S2048x128_S50000x1_S50000x128_1_0_0_1 : ScatterDims S2048x128 S50000x1 S50000x128 where
  updateWindowDims := [1]
  insertedWindowDims := [0]
  scatterDimsToOperandDims := [0]
  indexVectorDim := 1
  wf := scatter_S2048x128_S50000x1_S50000x128_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x128_S128x19_S2048x19_1_0_0_1_n_n : DotDims S2048x128 S128x19 S2048x19 where
  lhsContracting := [1]
  rhsContracting := [0]
  lhsNonContracting := [0]
  rhsNonContracting := [1]
  lhsBatch := []
  rhsBatch := []
  wf := dot_S2048x128_S128x19_S2048x19_1_0_0_1_n_n_wf

class Facts : Prop extends Facts₀ where

variable [Facts]
-- ==== Proof.KernelRun.lean ====
/-
  The idealized kernel program's run, with its result kept.

  The program is five grid regions among six stretches of host operations.  Every weakly fair execution from a
  memory with zero counters terminates without a fault.  Between two segments a core holds every unscoped buffer at
  the contents the fold of the segments so far leaves there (a host stretch applies its operations as pure functions;
  a region replaces its windows' arrays by what its write-backs leave), some generator register, and owes nothing.
  Reading the last such state against the final memory gives the result buffer at the end of the fold and each of the
  eleven argument arrays at its launch contents.
-/
import proofs.«105139_j5488968204991_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds when the first host stretch starts: the unscoped buffers at the launch contents, some generator
    register, nothing owed. -/
abbrev first (c : Dev nD) : sProp 𝕄 :=
  iprop(StableHlo.held (c : Thread nD τ) (Pipeline.ucRefs τ sig) (W0 m ρ c) ∗ R c)

/-- What the final memory must show of the last thread state: every unscoped buffer at the end of the fold. -/
abbrev Shows (c : Dev nD) (s : MemSt nD τ sig (Elt F)) : Prop :=
  ∀ b ∈ Pipeline.ucRefs τ sig, s.mem (((c : Thread nD τ)).1, b) = W11 m ρ c b

set_option backward.isDefEq.respectTransparency.types false in
/-- THE RUN.  The library's launch of a list of segments, at the generated segments of this program: the launch's ghost
    element is the pipelines' initial rounds state and nothing else; the first thread state is made from the launch's
    unscoped buffers, register and empty debt; consecutive segments' states agree as written, the last one dropping
    into "every unscoped buffer at the end of the fold, some register" beside the empty debt; that state, read against a
    final memory, shows each unscoped buffer's contents; and the result buffer and the eleven arguments are unscoped. -/
theorem run_result : θ_run defs (onTc (τ := τ) (main (F := F))) ⟨m, fun _ => 0, ρ⟩ (fun r => ∀ c : Dev nD,
      r.2.mem ((c.tc : Thread nD τ).loc main_v97) = W11 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit (pcfgs (F := F)) adm (pdats m ρ) () cellOf_inj emb₁ defs₀ 𝒱₀ L lv m ρ main (segs m ρ)
    (fun c Q => by rw [main_run m ρ c]) ?nodup (O₀ := 0) (hL := fun _ _ => rfl) (G := fun _ => iprop(emp))
    (u₀ := initOf (Pipeline.cells cfgs cellOf_inj) (Pipeline.launchToks cfgs cellOf_inj)) ?ghost
    (T₀ := first m ρ) (Tₙ := Tₙ m ρ) ?chain ?init (QY := Shows m ρ) ?read ?proj
  case nodup =>
    -- each of the five pipelines is entered by exactly one region of the list
    simp only [segs, Pipeline.Seg.pipes_host, Pipeline.Seg.pipes_region, Pipeline.Seg.pipes_nil]
    decide
  case ghost =>
    iintro Hown
    imodintro
    isplitl [Hown]
    · -- the pipelines' rounds state sits in the certificate's algebra as itself
      iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hown
    · -- no core gets anything else
      iapply (show (BI.emp : sProp 𝕄) ⊢ bigSep Finset.univ (fun _ : Dev nD => (BI.emp : sProp 𝕄)) from by
        rw [BI.bigSep_emp_const])
      iempintro
  case chain =>
    refine ⟨fun _ => .rfl, fun _ => .rfl, fun _ => .rfl, fun _ => .rfl, fun _ => .rfl, fun _ => .rfl,
      fun _ => .rfl, fun _ => .rfl, fun _ => .rfl, fun _ => .rfl, fun _ => .rfl, fun c => ?_⟩
    -- after the last stretch: the buffers at the end of the fold and the register stay; the empty debt stands beside
    dsimp only [Pipeline.Seg.post, hseg, Pipeline.HostSeg.ofOps]
    iintro ⟨Hbufs, Hreg, Hdebt⟩
    isplitr [Hdebt]
    · isplitl [Hbufs]
      · iexact Hbufs
      · iexact Hreg
    · iexact Hdebt
  case init =>
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Hdebt, -, Hreg, -⟩, -⟩
    imodintro
    isplitl [Hbufs]
    · iexact Hbufs
    isplitl [Hreg]
    · iexists _
      iexact Hreg
    · iexists ∅
      iexact Hdebt
  case read =>
    intro c s'
    iintro ⟨⟨Hbufs, -⟩, Hstate⟩
    unfold StableHlo.held
    imodintro
    iapply (pointsTo_read_all (Pipeline.ucRefs τ sig) (fun b => (((c : Thread nD τ)).1, b)) (W11 m ρ c) s')
    isplitl [Hbufs]
    · iexact Hbufs
    · iexact Hstate
  case proj =>
    intro s h c
    exact ⟨h c _ (mem_uc main_v97 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c)⟩

end Cert.KernelIdeal.KRun

end
-- ==== Proof.KernelHost.lean ====
/-
  The host operations of the idealized kernel program between its regions, as pure functions of arrays.

  Before the first region the program reads the edge list's two rows (sources, destinations), counts for every node the
  edges that end there, adds one and takes the reciprocal square root (the degree normalisation), gathers that
  normalisation at every edge's destination, squares it for the self-loop term, and reshapes the three bias vectors
  into rows.  Before each of the next three regions it forms the edge aggregate of the previous region's output:
  every node's row is scaled by the node's normalisation, the scaled row of an edge's source is gathered, scaled again
  by the normalisation at the edge's destination, and the results are summed into the destination's row.  Before the
  last region it sums the node rows and counts the nodes of every graph, and pads the classifier's weights and bias
  with zero columns up to 128.  After the last region it cuts the first 19 columns out.

  Each stretch, run from any buffer contents, leaves in its result buffers these functions of its inputs.
-/
import proofs.«105139_j5488968204991_2_alg».proof.Proof.Gen.KernelIdeal.Launch
import Idealize.ShloMosaic.Lib.StableHlo.Run
import Idealize.ShloMosaic.PureOps.Ideal.Laws

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

/-! ## The functions -/

/-- The edges' source nodes: the first row of the edge list, flattened. -/
def src (ei : IVec S2x800000 32) : IVec S800000 32 :=
  shapeCast S800000 (extractStridedSlice S1x800000 ![0, 0] ei slices_S2x800000_S1x800000_0_0) shapeCasts_S1x800000_S800000

/-- The edges' destination nodes: the second row, flattened. -/
def dst (ei : IVec S2x800000 32) : IVec S800000 32 :=
  shapeCast S800000 (extractStridedSlice S1x800000 ![1, 0] ei slices_S2x800000_S1x800000_1_0) shapeCasts_S1x800000_S800000

/-- The degree normalisation: one over the square root of (edges ending at the node, plus one). -/
def degInv (d : IVec S800000 32) : FVec Ideal S50000 .f32 :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 d)
      (broadcastInDim S800000 ![] bcast_S_S800000 (constant S_ .f32 0x3F800000#32)))
    (broadcastInDim S50000 ![] bcast_S_S50000 (constant S_ .f32 0x3F800000#32)))

/-- Node numbers as gather start indices: a negative number wraps by the node count; one index per row. -/
def wrap (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The normalisation at every edge's destination. -/
def atDst (dinv : FVec Ideal S50000 .f32) (d : IVec S800000 32) : FVec Ideal S800000 .f32 :=
  Host.gather gather_S50000_S800000x1_S800000_n_0_n_n_0_1_1 dinv (wrap d)

/-- The self-loop scale: the normalisation squared, as a column. -/
def selfScale (dinv : FVec Ideal S50000 .f32) : FVec Ideal S50000x1 .f32 :=
  shapeCast S50000x1 (mulf dinv dinv) shapeCasts_S50000_S50000x1

/-- A bias vector as a row. -/
def biasRow (b : FVec Ideal S128 .f32) : FVec Ideal S1x128 .f32 := shapeCast S1x128 b shapeCasts_S128_S1x128

/-- The edges' messages: the source's row scaled by the source's normalisation, gathered, then scaled by the
    normalisation at the destination (the two changes of float format in between are the identity). -/
def msg (h : FVec Ideal S50000x128 .f32) (dinv : FVec Ideal S50000 .f32) (s : IVec S800000 32)
    (dd : FVec Ideal S800000 .f32) : FVec Ideal S800000x128 .f32 :=
  mulf
    (extf .f32 (Host.gather gather_S50000x128_S800000x1_S800000x128_1_0_n_n_0_1_1128
      (truncf .bf16 (mulf h (broadcastInDim S50000x128 ![0, 1] bcast_S50000x1_S50000x128_0_1
        (broadcastInDim S50000x1 ![0] bcast_S50000_S50000x1_0 dinv))) bitsLt_bf16_f32)
      (wrap s)) bitsLt_bf16_f32)
    (broadcastInDim S800000x128 ![0, 1] bcast_S800000x1_S800000x128_0_1
      (broadcastInDim S800000x1 ![0] bcast_S800000_S800000x1_0 dd))

/-- The edge aggregate: the messages summed into their destinations' rows. -/
def agg (h : FVec Ideal S50000x128 .f32) (dinv : FVec Ideal S50000 .f32) (s d : IVec S800000 32)
    (dd : FVec Ideal S800000 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (msg h dinv s dd)

/-- The node rows summed per graph. -/
def sums (batch : IVec S50000 32) (h : FVec Ideal S50000x128 .f32) : FVec Ideal S2048x128 .f32 :=
  Host.scatterAdd scatter_S2048x128_S50000x1_S50000x128_1_0_0_1
    (broadcastInDim S2048x128 ![] bcast_S_S2048x128 (constant S_ .f32 0x00000000#32))
    (broadcastInDim S50000x1 ![0] bcast_S50000_S50000x1_0 batch) h

/-- The nodes counted per graph, as a column. -/
def counts (batch : IVec S50000 32) : FVec Ideal S2048x1 .f32 :=
  shapeCast S2048x1
    (Host.scatterAdd scatter_S2048_S50000x1_S50000_n_0_0_1
      (broadcastInDim S2048 ![] bcast_S_S2048 (constant S_ .f32 0x00000000#32))
      (broadcastInDim S50000x1 ![0] bcast_S50000_S50000x1_0 batch)
      (broadcastInDim S50000 ![] bcast_S_S50000 (constant S_ .f32 0x3F800000#32)))
    shapeCasts_S2048_S2048x1

/-- The classifier's weights in the first 19 of 128 columns of a zero matrix. -/
def padW (Wl : FVec Ideal S128x19 .f32) : FVec Ideal S128x128 .f32 :=
  Host.scatter scatter_S128x128_S1_S128x19_01_n_1_0 (fun _ b => b)
    (broadcastInDim S128x128 ![] bcast_S_S128x128 (constant S_ .f32 0x00000000#32))
    (broadcastInDim S1 ![] bcast_S_S1 (constantI S_ 32 0#32)) Wl

/-- The classifier's bias in the first 19 of 128 columns of a zero row. -/
def padB (bl : FVec Ideal S19 .f32) : FVec Ideal S1x128 .f32 :=
  Host.scatter scatter_S1x128_S1_S1x19_01_n_1_0 (fun _ b => b)
    (broadcastInDim S1x128 ![] bcast_S_S1x128 (constant S_ .f32 0x00000000#32))
    (broadcastInDim S1 ![] bcast_S_S1 (constantI S_ 32 0#32)) (shapeCast S1x19 bl shapeCasts_S19_S1x19)

/-- The first 19 columns. -/
def cut (y : FVec Ideal S2048x128 .f32) : FVec Ideal S2048x19 .f32 :=
  extractStridedSlice S2048x19 ![0, 0] y slices_S2048x128_S2048x19_0_0

/-! ## What each stretch leaves, from any contents `X` -/

variable (X : Valuation τ sig (Elt Ideal))

set_option maxHeartbeats 2000000 in
theorem first_src : StableHlo.after (hostOps0 (F := Ideal)) X (Proc.devRef .tc main_v1) = src (X (Proc.devRef .tc main_arg1)) := by
  dsimp only [hostOps0]; after_results_simp; rfl
set_option maxHeartbeats 2000000 in
theorem first_dst : StableHlo.after (hostOps0 (F := Ideal)) X (Proc.devRef .tc main_v3) = dst (X (Proc.devRef .tc main_arg1)) := by
  dsimp only [hostOps0]; after_results_simp; rfl
set_option maxHeartbeats 2000000 in
theorem first_degInv : StableHlo.after (hostOps0 (F := Ideal)) X (Proc.devRef .tc main_v10) = degInv (dst (X (Proc.devRef .tc main_arg1))) := by
  dsimp only [hostOps0]; after_results_simp; rfl
set_option maxHeartbeats 2000000 in
theorem first_atDst : StableHlo.after (hostOps0 (F := Ideal)) X (Proc.devRef .tc main_v17)
    = atDst (degInv (dst (X (Proc.devRef .tc main_arg1)))) (dst (X (Proc.devRef .tc main_arg1))) := by
  dsimp only [hostOps0]; after_results_simp; rfl
set_option maxHeartbeats 2000000 in
theorem first_selfScale : StableHlo.after (hostOps0 (F := Ideal)) X (Proc.devRef .tc main_v19)
    = selfScale (degInv (dst (X (Proc.devRef .tc main_arg1)))) := by
  dsimp only [hostOps0]; after_results_simp; rfl
set_option maxHeartbeats 2000000 in
theorem first_bias1 : StableHlo.after (hostOps0 (F := Ideal)) X (Proc.devRef .tc main_v20) = biasRow (X (Proc.devRef .tc main_arg4)) := by
  dsimp only [hostOps0]; after_results_simp; rfl
set_option maxHeartbeats 2000000 in
theorem first_bias2 : StableHlo.after (hostOps0 (F := Ideal)) X (Proc.devRef .tc main_v21) = biasRow (X (Proc.devRef .tc main_arg6)) := by
  dsimp only [hostOps0]; after_results_simp; rfl
set_option maxHeartbeats 2000000 in
theorem first_bias3 : StableHlo.after (hostOps0 (F := Ideal)) X (Proc.devRef .tc main_v22) = biasRow (X (Proc.devRef .tc main_arg8)) := by
  dsimp only [hostOps0]; after_results_simp; rfl

set_option maxHeartbeats 2000000 in
theorem agg1 : StableHlo.after (hostOps1 (F := Ideal)) X (Proc.devRef .tc main_v41)
    = agg (X (Proc.devRef .tc main_v23)) (X (Proc.devRef .tc main_v10)) (X (Proc.devRef .tc main_v1))
        (X (Proc.devRef .tc main_v3)) (X (Proc.devRef .tc main_v17)) := by
  dsimp only [hostOps1]; after_results_simp; rfl
set_option maxHeartbeats 2000000 in
theorem agg2 : StableHlo.after (hostOps2 (F := Ideal)) X (Proc.devRef .tc main_v60)
    = agg (X (Proc.devRef .tc main_v42)) (X (Proc.devRef .tc main_v10)) (X (Proc.devRef .tc main_v1))
        (X (Proc.devRef .tc main_v3)) (X (Proc.devRef .tc main_v17)) := by
  dsimp only [hostOps2]; after_results_simp; rfl
set_option maxHeartbeats 2000000 in
theorem agg3 : StableHlo.after (hostOps3 (F := Ideal)) X (Proc.devRef .tc main_v79)
    = agg (X (Proc.devRef .tc main_v61)) (X (Proc.devRef .tc main_v10)) (X (Proc.devRef .tc main_v1))
        (X (Proc.devRef .tc main_v3)) (X (Proc.devRef .tc main_v17)) := by
  dsimp only [hostOps3]; after_results_simp; rfl

set_option maxHeartbeats 2000000 in
theorem last_sums : StableHlo.after (hostOps4 (F := Ideal)) X (Proc.devRef .tc main_v83)
    = sums (X (Proc.devRef .tc main_arg2)) (X (Proc.devRef .tc main_v80)) := by
  dsimp only [hostOps4]; after_results_simp; rfl
set_option maxHeartbeats 2000000 in
theorem last_counts : StableHlo.after (hostOps4 (F := Ideal)) X (Proc.devRef .tc main_v88) = counts (X (Proc.devRef .tc main_arg2)) := by
  dsimp only [hostOps4]; after_results_simp; rfl
set_option maxHeartbeats 2000000 in
theorem last_padW : StableHlo.after (hostOps4 (F := Ideal)) X (Proc.devRef .tc main_v91) = padW (X (Proc.devRef .tc main_arg9)) := by
  dsimp only [hostOps4]; after_results_simp; rfl
set_option maxHeartbeats 2000000 in
theorem last_padB : StableHlo.after (hostOps4 (F := Ideal)) X (Proc.devRef .tc main_v95) = padB (X (Proc.devRef .tc main_arg10)) := by
  dsimp only [hostOps4]; after_results_simp; rfl

set_option maxHeartbeats 2000000 in
theorem tail_cut : StableHlo.after (hostOps5 (F := Ideal)) X (Proc.devRef .tc main_v97) = cut (X (Proc.devRef .tc main_v96)) := by
  dsimp only [hostOps5]; after_results_simp; rfl

end Cert.KernelIdeal.KHost

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.Region0.lean ====
/-
  The first region: ten row blocks of the node features times the first weight matrix.

  Grid point `t` multiplies rows `5000 t … 5000 t + 4999` of the `50000 × 11` feature array by the whole `11 × 128`
  weight array and writes the product over the same rows of the result.  So, whatever the region finds in its two
  input arrays, it leaves in its output array the full product: entry `(r, q)` is `∑ k, X (r, k) · W (k, q)`.
-/
import proofs.«105139_j5488968204991_2_alg».proof.Proof.Gen.KernelIdeal.Frame
import proofs.«105139_j5488968204991_2_alg».proof.Proof.LibMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The region's result as one function of its two input arrays: the matrix product, entry by entry. -/
def prod (X : S50000x11.Idx → EReal) (W : S11x128.Idx → EReal) : S50000x128.Idx → EReal :=
  fun i => ∑ k : Fin 11, X (ix2 ⟨(i 0).val, (i 0).isLt⟩ k) * W (ix2 k ⟨(i 1).val, (i 1).isLt⟩)

theorem origin : (![0, 0] : Fin 2 → Nat) = fun _ => 0 := funext fun a => by fin_cases a <;> rfl

/-- One block's product at an entry: the sum over the eleven features (the two format changes are the identity on
    extended reals, the accumulator starts at zero). -/
theorem block_at (x0 : Vec Ideal S5000x11 .f32) (x1 : Vec Ideal S11x128 .f32) (p : Fin 5000) (q : Fin 128) :
    k0_pay1 x0 x1 (ix2 p q) = ∑ k : Fin 11, x0 (ix2 p k) * x1 (ix2 k q) := by
  unfold k0_pay1
  exact PlainMatmul.apply (d := dot_S5000x11_S11x128_S5000x128_1_0_0_1_n_n) ⟨rfl, rfl, rfl, rfl, rfl, rfl⟩ none _ _ p q

/-- Where the windows' blocks sit, decided over the ten points: the feature block and the result block are block `t`
    of their rows, the weight block is the whole array. -/
theorem blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the arrays the region found. -/
theorem written (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero origin]
  simp only [View.ld_unit_zero (S := S5000x11) origin, View.ld_unit_zero (S := S11x128) origin]
  obtain ⟨e0, e1, e2, e3, e4, e5⟩ := blocks t
  funext j
  obtain ⟨p, q, rfl⟩ : ∃ (p : Fin 5000) (q : Fin 128), j = ix2 p q := ⟨j 0, j 1, eq_ix2 j⟩
  refine (block_at _ _ p q).trans ?_
  show _ = prod (V c main_arg0) (V c main_arg3) (((cfg0.win 2).blk t).view.emb (ix2 p q))
  unfold prod
  refine Finset.sum_congr rfl fun k _ => ?_
  have hx : ((cfg0.win 0).blk t).view.emb (ix2 p k)
      = ix2 ⟨((((cfg0.win 2).blk t).view.emb (ix2 p q)) 0).val, ((((cfg0.win 2).blk t).view.emb (ix2 p q)) 0).isLt⟩ k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 11 + 1 * k.val = k.val; omega
  have hw : ((cfg0.win 1).blk t).view.emb (ix2 k q)
      = ix2 k ⟨((((cfg0.win 2).blk t).view.emb (ix2 p q)) 1).val, ((((cfg0.win 2).blk t).view.emb (ix2 p q)) 1).isLt⟩ := by
    funext a; apply Fin.ext
    match a with
    | ⟨0, _⟩ => show win0_1.index t (0 : Fin 2) * 11 + 1 * k.val = k.val; omega
    | ⟨1, _⟩ => show win0_1.index t (1 : Fin 2) * 128 + 1 * q.val = win0_2.index t (1 : Fin 2) * 128 + 1 * q.val; omega
  have h0 : iblk0 V c 0 t (ix2 p k) = V c main_arg0
      (ix2 ⟨((((cfg0.win 2).blk t).view.emb (ix2 p q)) 0).val, ((((cfg0.win 2).blk t).view.emb (ix2 p q)) 0).isLt⟩ k) := by
    exact congrArg (V c main_arg0) hx
  have h1 : iblk0 V c 1 t (ix2 k q) = V c main_arg3
      (ix2 k ⟨((((cfg0.win 2).blk t).view.emb (ix2 p q)) 1).val, ((((cfg0.win 2).blk t).view.emb (ix2 p q)) 1).isLt⟩) := by
    exact congrArg (V c main_arg3) hw
  rw [h0, h1]

/-- An entry of the result array is in point `t`'s block iff each coordinate is in the block's range. -/
theorem in_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v23).slice (win0_2.rect t)).set ↔ _
  rw [View.set_slice_whole, Rect.mem_set_unit]
  exact Iff.rfl

/-- Every entry is written: row `r` by the point `r / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < 10; omega⟩
  obtain ⟨-, -, -, -, e4, e5⟩ := blocks t
  have ht : t.val = (i 0).val / 5000 := rfl
  refine ⟨t, flush0_2 t, ?_⟩
  rw [in_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY when the region ends: the product of the two arrays it found. -/
theorem final (c : Dev nD) : (dat0 V c).arrAt 2 cfg0.N = prod (V c main_arg0) (V c main_arg3) :=
  (dat0 V c).arrAt_eq_of_cover 2 (prod (V c main_arg0) (V c main_arg3)) (fun t _ => written V c t) covered

end Cert.KernelIdeal.Reg0

end
-- ==== Proof.Region1.lean ====
/-
  The second region: the first layer's combine (aggregate + self-loop + bias, then the rectifier) fused with the second layer's linear map.

  Grid point `t` takes rows `5000 t … 5000 t + 4999` of the previous layer's linear output `A`, of the edge aggregate
  `B` and of the self-loop scale `S` (one column), the whole bias row `b` and the whole `128 × 128` weight array `W`,
  forms `max (B + A · S + b, 0)` entry by entry (the scale broadcast along a row, the bias down the rows), multiplies by
  `W`, and writes the product over the same rows of the result.  So the region leaves, at `(r, q)`,
  `∑ k, max (B (r, k) + A (r, k) · S (r, 0) + b (0, k), 0) · W (k, q)`.
-/
import proofs.«105139_j5488968204991_2_alg».proof.Proof.Gen.KernelIdeal.Frame
import proofs.«105139_j5488968204991_2_alg».proof.Proof.LibMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The word of zero, as the extended real it denotes. -/
abbrev zero32 : EReal := (Scalar.ofBits (F := Ideal) .f32 0x00000000#32 : Ideal .f32)

/-- The region's result as one function of its five input arrays, entry by entry. -/
def layer (A B : S50000x128.Idx → EReal) (S : S50000x1.Idx → EReal) (b : S1x128.Idx → EReal) (W : S128x128.Idx → EReal) :
    S50000x128.Idx → EReal :=
  fun i => ∑ k : Fin 128,
    max (B (ix2 ⟨(i 0).val, (i 0).isLt⟩ k) + A (ix2 ⟨(i 0).val, (i 0).isLt⟩ k) * S (ix2 ⟨(i 0).val, (i 0).isLt⟩ 0) + b (ix2 0 k)) zero32
      * W (ix2 k ⟨(i 1).val, (i 1).isLt⟩)

theorem origin : (![0, 0] : Fin 2 → Nat) = fun _ => 0 := funext fun a => by fin_cases a <;> rfl

/-- A column broadcast along the rows reads the column's entry of the same row … -/
theorem col_at (x : Vec Ideal S5000x1 .f32) (h : S5000x1.Broadcasts S5000x128) (p : Fin 5000) (k : Fin 128) :
    broadcastTo S5000x128 x h (ix2 p k) = x (ix2 p 0) :=
  broadcastTo_apply x h (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])

/-- … and a row broadcast down the rows reads the row's entry of the same column. -/
theorem row_at (x : Vec Ideal S1x128 .f32) (h : S1x128.Broadcasts S5000x128) (p : Fin 5000) (k : Fin 128) :
    broadcastTo S5000x128 x h (ix2 p k) = x (ix2 0 k) :=
  broadcastTo_apply x h (ix2 p k) (ix2 0 k) (fun a => match a with
    | ⟨0, _⟩ => by show 0 = if (1 : Nat) = 1 then 0 else p.val; rw [if_pos rfl]
    | ⟨1, _⟩ => by show k.val = if (128 : Nat) = 1 then 0 else k.val; rw [if_neg (by decide)])

/-- One block's result at an entry. -/
theorem block_at (x0 x2 : Vec Ideal S5000x128 .f32) (x4 : Vec Ideal S5000x1 .f32) (x6 : Vec Ideal S1x128 .f32)
    (x16 : Vec Ideal S128x128 .f32) (p : Fin 5000) (q : Fin 128) :
    k1_pay1 x0 x2 x4 x6 x16 (ix2 p q)
      = ∑ k : Fin 128, max (x2 (ix2 p k) + x0 (ix2 p k) * x4 (ix2 p 0) + x6 (ix2 0 k)) zero32 * x16 (ix2 k q) := by
  unfold k1_pay1
  refine (PlainMatmul.apply (d := dot_S5000x128_S128x128_S5000x128_1_0_0_1_n_n) ⟨rfl, rfl, rfl, rfl, rfl, rfl⟩ none _ _ p q).trans ?_
  refine Finset.sum_congr rfl fun k _ => ?_
  simp only [shapeCast_self]
  show max (x2 (ix2 p k) + x0 (ix2 p k) * broadcastTo S5000x128 x4 broadcasts_S5000x1_S5000x128 (ix2 p k)
      + broadcastTo S5000x128 x6 broadcasts_S1x128_S5000x128 (ix2 p k)) zero32 * x16 (ix2 k q) = _
  rw [col_at, row_at]

/-- Where the windows' blocks sit, decided over the ten points: the three row-blocked inputs and the result are block
    `t` of their rows, the bias row and the weight array are whole. -/
theorem blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back is block `t` of `layer` of the arrays the region found. -/
theorem written (c : Dev nD) (t : Fin cfg1.N) :
    (dat1 V c).flushed 5 t = ((cfg1.win 5).blk t).view.read (Elt Ideal)
      (layer (V c main_v23) (V c main_v41) (V c main_v19) (V c main_v20) (V c main_arg5)) := by
  show (cfg1.win 5).cut (grid1.coords t) ((dat1 V c).after 5 t) = _
  rw [after1_5]
  unfold out1_5
  rw [View.canon_unit_zero origin]
  simp only [View.ld_unit_zero (S := S5000x128) origin, View.ld_unit_zero (S := S5000x1) origin,
    View.ld_unit_zero (S := S1x128) origin, View.ld_unit_zero (S := S128x128) origin]
  obtain ⟨e0, e1, e2, e3, e4, e5, e6, e7, e8, e9, e10, e11⟩ := blocks t
  funext j
  obtain ⟨p, q, rfl⟩ : ∃ (p : Fin 5000) (q : Fin 128), j = ix2 p q := ⟨j 0, j 1, eq_ix2 j⟩
  refine (block_at _ _ _ _ _ p q).trans ?_
  show _ = layer (V c main_v23) (V c main_v41) (V c main_v19) (V c main_v20) (V c main_arg5) (((cfg1.win 5).blk t).view.emb (ix2 p q))
  unfold layer
  refine Finset.sum_congr rfl fun k _ => ?_
  have hA : ((cfg1.win 0).blk t).view.emb (ix2 p k)
      = ix2 ⟨((((cfg1.win 5).blk t).view.emb (ix2 p q)) 0).val, ((((cfg1.win 5).blk t).view.emb (ix2 p q)) 0).isLt⟩ k := by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have hB : ((cfg1.win 1).blk t).view.emb (ix2 p k)
      = ix2 ⟨((((cfg1.win 5).blk t).view.emb (ix2 p q)) 0).val, ((((cfg1.win 5).blk t).view.emb (ix2 p q)) 0).isLt⟩ k := by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have hS : ((cfg1.win 2).blk t).view.emb (ix2 p (0 : Fin 1))
      = ix2 ⟨((((cfg1.win 5).blk t).view.emb (ix2 p q)) 0).val, ((((cfg1.win 5).blk t).view.emb (ix2 p q)) 0).isLt⟩ (0 : Fin 1) := by
    funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have hb : ((cfg1.win 3).blk t).view.emb (ix2 (0 : Fin 1) k) = ix2 (0 : Fin 1) k := by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have hW : ((cfg1.win 4).blk t).view.emb (ix2 k q)
      = ix2 k ⟨((((cfg1.win 5).blk t).view.emb (ix2 p q)) 1).val, ((((cfg1.win 5).blk t).view.emb (ix2 p q)) 1).isLt⟩ := by
    funext a; apply Fin.ext
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  have h0 : iblk1 V c 0 t (ix2 p k) = V c main_v23 (ix2 ⟨((((cfg1.win 5).blk t).view.emb (ix2 p q)) 0).val, ((((cfg1.win 5).blk t).view.emb (ix2 p q)) 0).isLt⟩ k) := by
    exact congrArg (V c main_v23) hA
  have h1 : iblk1 V c 1 t (ix2 p k) = V c main_v41 (ix2 ⟨((((cfg1.win 5).blk t).view.emb (ix2 p q)) 0).val, ((((cfg1.win 5).blk t).view.emb (ix2 p q)) 0).isLt⟩ k) := by
    exact congrArg (V c main_v41) hB
  have h2 : iblk1 V c 2 t (ix2 p (0 : Fin 1)) = V c main_v19 (ix2 ⟨((((cfg1.win 5).blk t).view.emb (ix2 p q)) 0).val, ((((cfg1.win 5).blk t).view.emb (ix2 p q)) 0).isLt⟩ (0 : Fin 1)) := by
    exact congrArg (V c main_v19) hS
  have h3 : iblk1 V c 3 t (ix2 (0 : Fin 1) k) = V c main_v20 (ix2 (0 : Fin 1) k) := by
    exact congrArg (V c main_v20) hb
  have h4 : iblk1 V c 4 t (ix2 k q) = V c main_arg5 (ix2 k ⟨((((cfg1.win 5).blk t).view.emb (ix2 p q)) 1).val, ((((cfg1.win 5).blk t).view.emb (ix2 p q)) 1).isLt⟩) := by
    exact congrArg (V c main_arg5) hW
  rw [h0, h1, h2, h3, h4]

/-- An entry of the result array is in point `t`'s block iff each coordinate is in the block's range. -/
theorem in_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v42).slice (win1_5.rect t)).set ↔ _
  rw [View.set_slice_whole, Rect.mem_set_unit]
  exact Iff.rfl

/-- Every entry is written: row `r` by the point `r / 5000`. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by show (i 0).val / 5000 < 10; omega⟩
  obtain ⟨-, -, -, -, -, -, -, -, -, -, e10, e11⟩ := blocks t
  have ht : t.val = (i 0).val / 5000 := rfl
  refine ⟨t, flush1_5 t, ?_⟩
  rw [in_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY when the region ends. -/
theorem final (c : Dev nD) : (dat1 V c).arrAt 5 cfg1.N
    = layer (V c main_v23) (V c main_v41) (V c main_v19) (V c main_v20) (V c main_arg5) :=
  (dat1 V c).arrAt_eq_of_cover 5 _ (fun t _ => written V c t) covered

end Cert.KernelIdeal.Reg1

end
-- ==== Proof.Region2.lean ====
/-
  The third region: the second layer's combine (aggregate + self-loop + bias, then the rectifier) fused with the third layer's linear map.

  Grid point `t` takes rows `5000 t … 5000 t + 4999` of the previous layer's linear output `A`, of the edge aggregate
  `B` and of the self-loop scale `S` (one column), the whole bias row `b` and the whole `128 × 128` weight array `W`,
  forms `max (B + A · S + b, 0)` entry by entry (the scale broadcast along a row, the bias down the rows), multiplies by
  `W`, and writes the product over the same rows of the result.  So the region leaves, at `(r, q)`,
  `∑ k, max (B (r, k) + A (r, k) · S (r, 0) + b (0, k), 0) · W (k, q)`.
-/
import proofs.«105139_j5488968204991_2_alg».proof.Proof.Gen.KernelIdeal.Frame
import proofs.«105139_j5488968204991_2_alg».proof.Proof.LibMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The word of zero, as the extended real it denotes. -/
abbrev zero32 : EReal := (Scalar.ofBits (F := Ideal) .f32 0x00000000#32 : Ideal .f32)

/-- The region's result as one function of its five input arrays, entry by entry. -/
def layer (A B : S50000x128.Idx → EReal) (S : S50000x1.Idx → EReal) (b : S1x128.Idx → EReal) (W : S128x128.Idx → EReal) :
    S50000x128.Idx → EReal :=
  fun i => ∑ k : Fin 128,
    max (B (ix2 ⟨(i 0).val, (i 0).isLt⟩ k) + A (ix2 ⟨(i 0).val, (i 0).isLt⟩ k) * S (ix2 ⟨(i 0).val, (i 0).isLt⟩ 0) + b (ix2 0 k)) zero32
      * W (ix2 k ⟨(i 1).val, (i 1).isLt⟩)

theorem origin : (![0, 0] : Fin 2 → Nat) = fun _ => 0 := funext fun a => by fin_cases a <;> rfl

/-- A column broadcast along the rows reads the column's entry of the same row … -/
theorem col_at (x : Vec Ideal S5000x1 .f32) (h : S5000x1.Broadcasts S5000x128) (p : Fin 5000) (k : Fin 128) :
    broadcastTo S5000x128 x h (ix2 p k) = x (ix2 p 0) :=
  broadcastTo_apply x h (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])

/-- … and a row broadcast down the rows reads the row's entry of the same column. -/
theorem row_at (x : Vec Ideal S1x128 .f32) (h : S1x128.Broadcasts S5000x128) (p : Fin 5000) (k : Fin 128) :
    broadcastTo S5000x128 x h (ix2 p k) = x (ix2 0 k) :=
  broadcastTo_apply x h (ix2 p k) (ix2 0 k) (fun a => match a with
    | ⟨0, _⟩ => by show 0 = if (1 : Nat) = 1 then 0 else p.val; rw [if_pos rfl]
    | ⟨1, _⟩ => by show k.val = if (128 : Nat) = 1 then 0 else k.val; rw [if_neg (by decide)])

/-- One block's result at an entry. -/
theorem block_at (x0 x2 : Vec Ideal S5000x128 .f32) (x4 : Vec Ideal S5000x1 .f32) (x6 : Vec Ideal S1x128 .f32)
    (x16 : Vec Ideal S128x128 .f32) (p : Fin 5000) (q : Fin 128) :
    k2_pay1 x0 x2 x4 x6 x16 (ix2 p q)
      = ∑ k : Fin 128, max (x2 (ix2 p k) + x0 (ix2 p k) * x4 (ix2 p 0) + x6 (ix2 0 k)) zero32 * x16 (ix2 k q) := by
  unfold k2_pay1
  refine (PlainMatmul.apply (d := dot_S5000x128_S128x128_S5000x128_1_0_0_1_n_n) ⟨rfl, rfl, rfl, rfl, rfl, rfl⟩ none _ _ p q).trans ?_
  refine Finset.sum_congr rfl fun k _ => ?_
  simp only [shapeCast_self]
  show max (x2 (ix2 p k) + x0 (ix2 p k) * broadcastTo S5000x128 x4 broadcasts_S5000x1_S5000x128 (ix2 p k)
      + broadcastTo S5000x128 x6 broadcasts_S1x128_S5000x128 (ix2 p k)) zero32 * x16 (ix2 k q) = _
  rw [col_at, row_at]

/-- Where the windows' blocks sit, decided over the ten points: the three row-blocked inputs and the result are block
    `t` of their rows, the bias row and the weight array are whole. -/
theorem blocks : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- What point `t` writes back is block `t` of `layer` of the arrays the region found. -/
theorem written (c : Dev nD) (t : Fin cfg2.N) :
    (dat2 V c).flushed 5 t = ((cfg2.win 5).blk t).view.read (Elt Ideal)
      (layer (V c main_v42) (V c main_v60) (V c main_v19) (V c main_v21) (V c main_arg7)) := by
  show (cfg2.win 5).cut (grid2.coords t) ((dat2 V c).after 5 t) = _
  rw [after2_5]
  unfold out2_5
  rw [View.canon_unit_zero origin]
  simp only [View.ld_unit_zero (S := S5000x128) origin, View.ld_unit_zero (S := S5000x1) origin,
    View.ld_unit_zero (S := S1x128) origin, View.ld_unit_zero (S := S128x128) origin]
  obtain ⟨e0, e1, e2, e3, e4, e5, e6, e7, e8, e9, e10, e11⟩ := blocks t
  funext j
  obtain ⟨p, q, rfl⟩ : ∃ (p : Fin 5000) (q : Fin 128), j = ix2 p q := ⟨j 0, j 1, eq_ix2 j⟩
  refine (block_at _ _ _ _ _ p q).trans ?_
  show _ = layer (V c main_v42) (V c main_v60) (V c main_v19) (V c main_v21) (V c main_arg7) (((cfg2.win 5).blk t).view.emb (ix2 p q))
  unfold layer
  refine Finset.sum_congr rfl fun k _ => ?_
  have hA : ((cfg2.win 0).blk t).view.emb (ix2 p k)
      = ix2 ⟨((((cfg2.win 5).blk t).view.emb (ix2 p q)) 0).val, ((((cfg2.win 5).blk t).view.emb (ix2 p q)) 0).isLt⟩ k := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have hB : ((cfg2.win 1).blk t).view.emb (ix2 p k)
      = ix2 ⟨((((cfg2.win 5).blk t).view.emb (ix2 p q)) 0).val, ((((cfg2.win 5).blk t).view.emb (ix2 p q)) 0).isLt⟩ k := by
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have hS : ((cfg2.win 2).blk t).view.emb (ix2 p (0 : Fin 1))
      = ix2 ⟨((((cfg2.win 5).blk t).view.emb (ix2 p q)) 0).val, ((((cfg2.win 5).blk t).view.emb (ix2 p q)) 0).isLt⟩ (0 : Fin 1) := by
    funext a; apply Fin.ext
    match a with
    | ⟨0, _⟩ => show win2_2.index t (0 : Fin 2) * 5000 + 1 * p.val = win2_5.index t (0 : Fin 2) * 5000 + 1 * p.val; omega
    | ⟨1, _⟩ => show win2_2.index t (1 : Fin 2) * 1 + 1 * 0 = 0; omega
  have hb : ((cfg2.win 3).blk t).view.emb (ix2 (0 : Fin 1) k) = ix2 (0 : Fin 1) k := by
    funext a; apply Fin.ext
    match a with
    | ⟨0, _⟩ => show win2_3.index t (0 : Fin 2) * 1 + 1 * 0 = 0; omega
    | ⟨1, _⟩ => show win2_3.index t (1 : Fin 2) * 128 + 1 * k.val = k.val; omega
  have hW : ((cfg2.win 4).blk t).view.emb (ix2 k q)
      = ix2 k ⟨((((cfg2.win 5).blk t).view.emb (ix2 p q)) 1).val, ((((cfg2.win 5).blk t).view.emb (ix2 p q)) 1).isLt⟩ := by
    funext a; apply Fin.ext
    match a with
    | ⟨0, _⟩ => show win2_4.index t (0 : Fin 2) * 128 + 1 * k.val = k.val; omega
    | ⟨1, _⟩ => show win2_4.index t (1 : Fin 2) * 128 + 1 * q.val = win2_5.index t (1 : Fin 2) * 128 + 1 * q.val; omega
  have h0 : iblk2 V c 0 t (ix2 p k) = V c main_v42 (ix2 ⟨((((cfg2.win 5).blk t).view.emb (ix2 p q)) 0).val, ((((cfg2.win 5).blk t).view.emb (ix2 p q)) 0).isLt⟩ k) := by
    exact congrArg (V c main_v42) hA
  have h1 : iblk2 V c 1 t (ix2 p k) = V c main_v60 (ix2 ⟨((((cfg2.win 5).blk t).view.emb (ix2 p q)) 0).val, ((((cfg2.win 5).blk t).view.emb (ix2 p q)) 0).isLt⟩ k) := by
    exact congrArg (V c main_v60) hB
  have h2 : iblk2 V c 2 t (ix2 p (0 : Fin 1)) = V c main_v19 (ix2 ⟨((((cfg2.win 5).blk t).view.emb (ix2 p q)) 0).val, ((((cfg2.win 5).blk t).view.emb (ix2 p q)) 0).isLt⟩ (0 : Fin 1)) := by
    exact congrArg (V c main_v19) hS
  have h3 : iblk2 V c 3 t (ix2 (0 : Fin 1) k) = V c main_v21 (ix2 (0 : Fin 1) k) := by
    exact congrArg (V c main_v21) hb
  have h4 : iblk2 V c 4 t (ix2 k q) = V c main_arg7 (ix2 k ⟨((((cfg2.win 5).blk t).view.emb (ix2 p q)) 1).val, ((((cfg2.win 5).blk t).view.emb (ix2 p q)) 1).isLt⟩) := by
    exact congrArg (V c main_arg7) hW
  rw [h0, h1, h2, h3, h4]

/-- An entry of the result array is in point `t`'s block iff each coordinate is in the block's range. -/
theorem in_block (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v61).slice (win2_5.rect t)).set ↔ _
  rw [View.set_slice_whole, Rect.mem_set_unit]
  exact Iff.rfl

/-- Every entry is written: row `r` by the point `r / 5000`. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 5000, by show (i 0).val / 5000 < 10; omega⟩
  obtain ⟨-, -, -, -, -, -, -, -, -, -, e10, e11⟩ := blocks t
  have ht : t.val = (i 0).val / 5000 := rfl
  refine ⟨t, flush2_5 t, ?_⟩
  rw [in_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE RESULT ARRAY when the region ends. -/
theorem final (c : Dev nD) : (dat2 V c).arrAt 5 cfg2.N
    = layer (V c main_v42) (V c main_v60) (V c main_v19) (V c main_v21) (V c main_arg7) :=
  (dat2 V c).arrAt_eq_of_cover 5 _ (fun t _ => written V c t) covered

end Cert.KernelIdeal.Reg2

end
-- ==== Proof.Region3.lean ====
/-
  The fourth region: the last layer's combine, with no rectifier and no product after it.

  Grid point `t` takes rows `5000 t … 5000 t + 4999` of the layer's linear output `A`, of the edge aggregate `B` and of
  the self-loop scale `S` (one column), and the whole bias row `b`, and writes `B + A · S + b` (the scale broadcast
  along a row, the bias down the rows) over the same rows of the result.  So the region leaves, at `(r, q)`,
  `B (r, q) + A (r, q) · S (r, 0) + b (0, q)`.
-/
import proofs.«105139_j5488968204991_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The region's result as one function of its four input arrays, entry by entry. -/
def comb (A B : S50000x128.Idx → EReal) (S : S50000x1.Idx → EReal) (b : S1x128.Idx → EReal) : S50000x128.Idx → EReal :=
  fun i => B i + A i * S (ix2 ⟨(i 0).val, (i 0).isLt⟩ 0) + b (ix2 0 ⟨(i 1).val, (i 1).isLt⟩)

theorem origin : (![0, 0] : Fin 2 → Nat) = fun _ => 0 := funext fun a => by fin_cases a <;> rfl

/-- A column broadcast along the rows reads the column's entry of the same row … -/
theorem col_at (x : Vec Ideal S5000x1 .f32) (h : S5000x1.Broadcasts S5000x128) (p : Fin 5000) (k : Fin 128) :
    broadcastTo S5000x128 x h (ix2 p k) = x (ix2 p 0) :=
  broadcastTo_apply x h (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])

/-- … and a row broadcast down the rows reads the row's entry of the same column. -/
theorem row_at (x : Vec Ideal S1x128 .f32) (h : S1x128.Broadcasts S5000x128) (p : Fin 5000) (k : Fin 128) :
    broadcastTo S5000x128 x h (ix2 p k) = x (ix2 0 k) :=
  broadcastTo_apply x h (ix2 p k) (ix2 0 k) (fun a => match a with
    | ⟨0, _⟩ => by show 0 = if (1 : Nat) = 1 then 0 else p.val; rw [if_pos rfl]
    | ⟨1, _⟩ => by show k.val = if (128 : Nat) = 1 then 0 else k.val; rw [if_neg (by decide)])

/-- One block's result at an entry. -/
theorem block_at (x0 x2 : Vec Ideal S5000x128 .f32) (x4 : Vec Ideal S5000x1 .f32) (x6 : Vec Ideal S1x128 .f32)
    (p : Fin 5000) (q : Fin 128) :
    k3_pay1 x0 x2 x4 x6 (ix2 p q) = x2 (ix2 p q) + x0 (ix2 p q) * x4 (ix2 p 0) + x6 (ix2 0 q) := by
  unfold k3_pay1
  simp only [shapeCast_self]
  show x2 (ix2 p q) + x0 (ix2 p q) * broadcastTo S5000x128 x4 broadcasts_S5000x1_S5000x128 (ix2 p q)
      + broadcastTo S5000x128 x6 broadcasts_S1x128_S5000x128 (ix2 p q) = _
  rw [col_at, row_at]

/-- Where the windows' blocks sit, decided over the ten points. -/
theorem blocks : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- What point `t` writes back is block `t` of `comb` of the arrays the region found. -/
theorem written (c : Dev nD) (t : Fin cfg3.N) :
    (dat3 V c).flushed 4 t = ((cfg3.win 4).blk t).view.read (Elt Ideal)
      (comb (V c main_v61) (V c main_v79) (V c main_v19) (V c main_v22)) := by
  show (cfg3.win 4).cut (grid3.coords t) ((dat3 V c).after 4 t) = _
  rw [after3_4]
  unfold out3_4
  rw [View.canon_unit_zero origin]
  simp only [View.ld_unit_zero (S := S5000x128) origin, View.ld_unit_zero (S := S5000x1) origin,
    View.ld_unit_zero (S := S1x128) origin]
  obtain ⟨e0, e1, e2, e3, e4, e5, e6, e7, e8, e9⟩ := blocks t
  funext j
  obtain ⟨p, q, rfl⟩ : ∃ (p : Fin 5000) (q : Fin 128), j = ix2 p q := ⟨j 0, j 1, eq_ix2 j⟩
  refine (block_at _ _ _ _ p q).trans ?_
  show _ = comb (V c main_v61) (V c main_v79) (V c main_v19) (V c main_v22) (((cfg3.win 4).blk t).view.emb (ix2 p q))
  unfold comb
  have hA : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have hB : ((cfg3.win 1).blk t).view.emb (ix2 p q) = ((cfg3.win 4).blk t).view.emb (ix2 p q) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * q.val = win3_4.index t (1 : Fin 2) * 128 + 1 * q.val; omega
  have hS : ((cfg3.win 2).blk t).view.emb (ix2 p (0 : Fin 1))
      = ix2 ⟨((((cfg3.win 4).blk t).view.emb (ix2 p q)) 0).val, ((((cfg3.win 4).blk t).view.emb (ix2 p q)) 0).isLt⟩ (0 : Fin 1) := by
    funext a; apply Fin.ext
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  have hb : ((cfg3.win 3).blk t).view.emb (ix2 (0 : Fin 1) q)
      = ix2 (0 : Fin 1) ⟨((((cfg3.win 4).blk t).view.emb (ix2 p q)) 1).val, ((((cfg3.win 4).blk t).view.emb (ix2 p q)) 1).isLt⟩ := by
    funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  have h0 : iblk3 V c 0 t (ix2 p q) = V c main_v61 (((cfg3.win 4).blk t).view.emb (ix2 p q)) :=
    congrArg (V c main_v61) hA
  have h1 : iblk3 V c 1 t (ix2 p q) = V c main_v79 (((cfg3.win 4).blk t).view.emb (ix2 p q)) :=
    congrArg (V c main_v79) hB
  have h2 : iblk3 V c 2 t (ix2 p (0 : Fin 1)) = V c main_v19
      (ix2 ⟨((((cfg3.win 4).blk t).view.emb (ix2 p q)) 0).val, ((((cfg3.win 4).blk t).view.emb (ix2 p q)) 0).isLt⟩ (0 : Fin 1)) :=
    congrArg (V c main_v19) hS
  have h3 : iblk3 V c 3 t (ix2 (0 : Fin 1) q) = V c main_v22
      (ix2 (0 : Fin 1) ⟨((((cfg3.win 4).blk t).view.emb (ix2 p q)) 1).val, ((((cfg3.win 4).blk t).view.emb (ix2 p q)) 1).isLt⟩) :=
    congrArg (V c main_v22) hb
  rw [h0, h1, h2, h3]

/-- An entry of the result array is in point `t`'s block iff each coordinate is in the block's range. -/
theorem in_block (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v80).slice (win3_4.rect t)).set ↔ _
  rw [View.set_slice_whole, Rect.mem_set_unit]
  exact Iff.rfl

/-- Every entry is written: row `r` by the point `r / 5000`. -/
theorem covered (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  let t : Fin cfg3.N := ⟨(i 0).val / 5000, by show (i 0).val / 5000 < 10; omega⟩
  obtain ⟨-, -, -, -, -, -, -, -, e8, e9⟩ := blocks t
  have ht : t.val = (i 0).val / 5000 := rfl
  refine ⟨t, flush3_4 t, ?_⟩
  rw [in_block]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- THE RESULT ARRAY when the region ends. -/
theorem final (c : Dev nD) : (dat3 V c).arrAt 4 cfg3.N
    = comb (V c main_v61) (V c main_v79) (V c main_v19) (V c main_v22) :=
  (dat3 V c).arrAt_eq_of_cover 4 _ (fun t _ => written V c t) covered

end Cert.KernelIdeal.Reg3

end
-- ==== Proof.Region4.lean ====
/-
  The fifth region: the mean pool's quotient and the classifier, on one grid point.

  The single point takes the whole arrays: the per-graph feature sums `Σ` (`2048 × 128`), the per-graph node counts
  `n` (one column), the classifier's weights padded to `128 × 128` and its bias padded to `1 × 128`.  It divides each
  row of sums by `max (n, 1)`, multiplies by the weights and adds the bias row.  So the region leaves, at `(g, q)`,
  `(∑ k, (Σ (g, k) / max (n (g, 0), 1)) · W (k, q)) + b (0, q)`.
-/
import proofs.«105139_j5488968204991_2_alg».proof.Proof.Gen.KernelIdeal.Frame
import proofs.«105139_j5488968204991_2_alg».proof.Proof.LibMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg4

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The word of one, as the extended real it denotes. -/
abbrev one32 : EReal := (Scalar.ofBits (F := Ideal) .f32 0x3F800000#32 : Ideal .f32)

/-- The region's result as one function of its four input arrays, entry by entry. -/
def pool (Sm : S2048x128.Idx → EReal) (cnt : S2048x1.Idx → EReal) (W : S128x128.Idx → EReal) (b : S1x128.Idx → EReal) :
    S2048x128.Idx → EReal :=
  fun i => (∑ k : Fin 128,
      Ideal.div (Sm (ix2 ⟨(i 0).val, (i 0).isLt⟩ k)) (max (cnt (ix2 ⟨(i 0).val, (i 0).isLt⟩ 0)) one32)
        * W (ix2 k ⟨(i 1).val, (i 1).isLt⟩))
    + b (ix2 0 ⟨(i 1).val, (i 1).isLt⟩)

theorem origin : (![0, 0] : Fin 2 → Nat) = fun _ => 0 := funext fun a => by fin_cases a <;> rfl

/-- A column broadcast along the rows reads the column's entry of the same row … -/
theorem col_at (x : Vec Ideal S2048x1 .f32) (h : S2048x1.Broadcasts S2048x128) (p : Fin 2048) (k : Fin 128) :
    broadcastTo S2048x128 x h (ix2 p k) = x (ix2 p 0) :=
  broadcastTo_apply x h (ix2 p k) (ix2 p 0) (fun a => match a with
    | ⟨0, _⟩ => by show p.val = if (2048 : Nat) = 1 then 0 else p.val; rw [if_neg (by decide)]
    | ⟨1, _⟩ => by show 0 = if (1 : Nat) = 1 then 0 else k.val; rw [if_pos rfl])

/-- … and a row broadcast down the rows reads the row's entry of the same column. -/
theorem row_at (x : Vec Ideal S1x128 .f32) (h : S1x128.Broadcasts S2048x128) (p : Fin 2048) (k : Fin 128) :
    broadcastTo S2048x128 x h (ix2 p k) = x (ix2 0 k) :=
  broadcastTo_apply x h (ix2 p k) (ix2 0 k) (fun a => match a with
    | ⟨0, _⟩ => by show 0 = if (1 : Nat) = 1 then 0 else p.val; rw [if_pos rfl]
    | ⟨1, _⟩ => by show k.val = if (128 : Nat) = 1 then 0 else k.val; rw [if_neg (by decide)])

/-- The block's result at an entry. -/
theorem block_at (x0 : Vec Ideal S2048x128 .f32) (x2 : Vec Ideal S2048x1 .f32) (x9 : Vec Ideal S128x128 .f32)
    (x13 : Vec Ideal S1x128 .f32) (p : Fin 2048) (q : Fin 128) :
    k4_pay1 x0 x2 x9 x13 (ix2 p q)
      = (∑ k : Fin 128, Ideal.div (x0 (ix2 p k)) (max (x2 (ix2 p 0)) one32) * x9 (ix2 k q)) + x13 (ix2 0 q) := by
  unfold k4_pay1
  simp only [shapeCast_self]
  show (FloatOps.matmul (F := Ideal) dot_S2048x128_S128x128_S2048x128_1_0_0_1_n_n none
        (truncf .bf16 (divf x0 (broadcastTo S2048x128
          (maximumf x2 (broadcast S2048x1 (Scalar.ofBits (F := Ideal) .f32 0x3F800000#32))) broadcasts_S2048x1_S2048x128)) bitsLt_bf16_f32)
        (truncf .bf16 x9 bitsLt_bf16_f32) (constant S2048x128 .f32 0x00000000#32) (ix2 p q) : EReal)
      + broadcastTo S2048x128 x13 broadcasts_S1x128_S2048x128 (ix2 p q) = _
  rw [row_at, PlainMatmul.apply (d := dot_S2048x128_S128x128_S2048x128_1_0_0_1_n_n) ⟨rfl, rfl, rfl, rfl, rfl, rfl⟩ none _ _ p q]
  refine congrArg (· + x13 (ix2 0 q)) (Finset.sum_congr rfl fun k _ => ?_)
  show Ideal.div (x0 (ix2 p k)) (broadcastTo S2048x128
      (maximumf x2 (broadcast S2048x1 (Scalar.ofBits (F := Ideal) .f32 0x3F800000#32))) broadcasts_S2048x1_S2048x128 (ix2 p k))
      * x9 (ix2 k q) = _
  rw [col_at]
  rfl

/-- Where the windows' blocks sit at the one point: every block is its whole array. -/
theorem blocks : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

variable (V : (c : Dev nD) → (b : Ref sig .tc) → Buf (Elt Ideal) ((c : Thread nD τ).loc b))

/-- What the point writes back is (the whole of) `pool` of the arrays the region found. -/
theorem written (c : Dev nD) (t : Fin cfg4.N) :
    (dat4 V c).flushed 4 t = ((cfg4.win 4).blk t).view.read (Elt Ideal)
      (pool (V c main_v83) (V c main_v88) (V c main_v91) (V c main_v95)) := by
  show (cfg4.win 4).cut (grid4.coords t) ((dat4 V c).after 4 t) = _
  rw [after4_4]
  unfold out4_4
  rw [View.canon_unit_zero origin]
  simp only [View.ld_unit_zero (S := S2048x128) origin, View.ld_unit_zero (S := S2048x1) origin,
    View.ld_unit_zero (S := S128x128) origin, View.ld_unit_zero (S := S1x128) origin]
  obtain ⟨e0, e1, e2, e3, e4, e5, e6, e7, e8, e9⟩ := blocks t
  funext j
  obtain ⟨p, q, rfl⟩ : ∃ (p : Fin 2048) (q : Fin 128), j = ix2 p q := ⟨j 0, j 1, eq_ix2 j⟩
  refine (block_at _ _ _ _ p q).trans ?_
  show _ = pool (V c main_v83) (V c main_v88) (V c main_v91) (V c main_v95) (((cfg4.win 4).blk t).view.emb (ix2 p q))
  unfold pool
  have hb : ((cfg4.win 3).blk t).view.emb (ix2 (0 : Fin 1) q)
      = ix2 (0 : Fin 1) ⟨((((cfg4.win 4).blk t).view.emb (ix2 p q)) 1).val, ((((cfg4.win 4).blk t).view.emb (ix2 p q)) 1).isLt⟩ := by
    funext a; apply Fin.ext
    match a with
    | ⟨0, _⟩ => show win4_3.index t (0 : Fin 2) * 1 + 1 * 0 = 0; omega
    | ⟨1, _⟩ => show win4_3.index t (1 : Fin 2) * 128 + 1 * q.val = win4_4.index t (1 : Fin 2) * 128 + 1 * q.val; omega
  have h3 : iblk4 V c 3 t (ix2 (0 : Fin 1) q) = V c main_v95
      (ix2 (0 : Fin 1) ⟨((((cfg4.win 4).blk t).view.emb (ix2 p q)) 1).val, ((((cfg4.win 4).blk t).view.emb (ix2 p q)) 1).isLt⟩) :=
    congrArg (V c main_v95) hb
  rw [h3]
  refine congrArg (· + V c main_v95
    (ix2 (0 : Fin 1) ⟨((((cfg4.win 4).blk t).view.emb (ix2 p q)) 1).val, ((((cfg4.win 4).blk t).view.emb (ix2 p q)) 1).isLt⟩))
    (Finset.sum_congr rfl fun k _ => ?_)
  have hS : ((cfg4.win 0).blk t).view.emb (ix2 p k)
      = ix2 ⟨((((cfg4.win 4).blk t).view.emb (ix2 p q)) 0).val, ((((cfg4.win 4).blk t).view.emb (ix2 p q)) 0).isLt⟩ k := by
    funext a; apply Fin.ext
    match a with
    | ⟨0, _⟩ => show win4_0.index t (0 : Fin 2) * 2048 + 1 * p.val = win4_4.index t (0 : Fin 2) * 2048 + 1 * p.val; omega
    | ⟨1, _⟩ => show win4_0.index t (1 : Fin 2) * 128 + 1 * k.val = k.val; omega
  have hn : ((cfg4.win 1).blk t).view.emb (ix2 p (0 : Fin 1))
      = ix2 ⟨((((cfg4.win 4).blk t).view.emb (ix2 p q)) 0).val, ((((cfg4.win 4).blk t).view.emb (ix2 p q)) 0).isLt⟩ (0 : Fin 1) := by
    funext a; apply Fin.ext
    match a with
    | ⟨0, _⟩ => show win4_1.index t (0 : Fin 2) * 2048 + 1 * p.val = win4_4.index t (0 : Fin 2) * 2048 + 1 * p.val; omega
    | ⟨1, _⟩ => show win4_1.index t (1 : Fin 2) * 1 + 1 * 0 = 0; omega
  have hW : ((cfg4.win 2).blk t).view.emb (ix2 k q)
      = ix2 k ⟨((((cfg4.win 4).blk t).view.emb (ix2 p q)) 1).val, ((((cfg4.win 4).blk t).view.emb (ix2 p q)) 1).isLt⟩ := by
    funext a; apply Fin.ext
    match a with
    | ⟨0, _⟩ => show win4_2.index t (0 : Fin 2) * 128 + 1 * k.val = k.val; omega
    | ⟨1, _⟩ => show win4_2.index t (1 : Fin 2) * 128 + 1 * q.val = win4_4.index t (1 : Fin 2) * 128 + 1 * q.val; omega
  have h0 : iblk4 V c 0 t (ix2 p k) = V c main_v83
      (ix2 ⟨((((cfg4.win 4).blk t).view.emb (ix2 p q)) 0).val, ((((cfg4.win 4).blk t).view.emb (ix2 p q)) 0).isLt⟩ k) :=
    congrArg (V c main_v83) hS
  have h1 : iblk4 V c 1 t (ix2 p (0 : Fin 1)) = V c main_v88
      (ix2 ⟨((((cfg4.win 4).blk t).view.emb (ix2 p q)) 0).val, ((((cfg4.win 4).blk t).view.emb (ix2 p q)) 0).isLt⟩ (0 : Fin 1)) :=
    congrArg (V c main_v88) hn
  have h2 : iblk4 V c 2 t (ix2 k q) = V c main_v91
      (ix2 k ⟨((((cfg4.win 4).blk t).view.emb (ix2 p q)) 1).val, ((((cfg4.win 4).blk t).view.emb (ix2 p q)) 1).isLt⟩) :=
    congrArg (V c main_v91) hW
  rw [h0, h1, h2]

/-- An entry of the result array is in the point's block iff each coordinate is in the block's range. -/
theorem in_block (t : Fin cfg4.N) (i : S2048x128.Idx) :
    i ∈ ((cfg4.win 4).blk t).view.set ↔ ∀ a : Fin 2, win4_4.index t a * S2048x128.size a ≤ (i a).val ∧ (i a).val < win4_4.index t a * S2048x128.size a + S2048x128.size a := by
  show i ∈ ((View.whole main_v96).slice (win4_4.rect t)).set ↔ _
  rw [View.set_slice_whole, Rect.mem_set_unit]
  exact Iff.rfl

/-- Every entry is written, by the one point. -/
theorem covered (i : S2048x128.Idx) :
    ∃ t : Fin cfg4.N, (cfg4.win 4).flush t = true ∧ i ∈ ((cfg4.win 4).blk t).view.set := by
  have hi0 : (i 0).val < 2048 := (i 0).isLt
  have hi1 : (i 1).val < 128 := (i 1).isLt
  let t : Fin cfg4.N := ⟨0, by show 0 < 1; omega⟩
  obtain ⟨-, -, -, -, -, -, -, -, e8, e9⟩ := blocks t
  refine ⟨t, flush4_4 t, ?_⟩
  rw [in_block]
  intro a
  match a with
  | ⟨0, _⟩ => show win4_4.index t (0 : Fin 2) * 2048 ≤ (i 0).val ∧ (i 0).val < win4_4.index t (0 : Fin 2) * 2048 + 2048; omega
  | ⟨1, _⟩ => show win4_4.index t (1 : Fin 2) * 128 ≤ (i 1).val ∧ (i 1).val < win4_4.index t (1 : Fin 2) * 128 + 128; omega

/-- THE RESULT ARRAY when the region ends. -/
theorem final (c : Dev nD) : (dat4 V c).arrAt 4 cfg4.N
    = pool (V c main_v83) (V c main_v88) (V c main_v91) (V c main_v95) :=
  (dat4 V c).arrAt_eq_of_cover 4 _ (fun t _ => written V c t) covered

end Cert.KernelIdeal.Reg4

end
-- ==== Proof.KernelFold.lean ====
/-
  The idealized kernel program's result as one function of its eleven arguments.

  The fold of the program's segments over the launch memory is walked back from the result buffer: the last stretch
  cuts 19 columns out of the fifth region's output; that region's output is the pooled classifier of what the stretch
  before it leaves; and so on down through the three graph-convolution layers to the first region's product of the
  node features with the first weights.  A buffer that a segment does not write keeps its contents across it: across
  a region when it is none of the region's window arrays, across a stretch when no operation of the stretch writes it.
-/
import proofs.«105139_j5488968204991_2_alg».proof.Proof.Gen.KernelIdeal.Frame
import proofs.«105139_j5488968204991_2_alg».proof.Proof.KernelHost
import proofs.«105139_j5488968204991_2_alg».proof.Proof.Region0
import proofs.«105139_j5488968204991_2_alg».proof.Proof.Region1
import proofs.«105139_j5488968204991_2_alg».proof.Proof.Region2
import proofs.«105139_j5488968204991_2_alg».proof.Proof.Region3
import proofs.«105139_j5488968204991_2_alg».proof.Proof.Region4

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo

/-! ## The function -/

section Value

variable (x : FVec Ideal S50000x11 .f32) (ei : IVec S2x800000 32) (batch : IVec S50000 32)
  (W1 : FVec Ideal S11x128 .f32) (b1 : FVec Ideal S128 .f32) (W2 : FVec Ideal S128x128 .f32) (b2 : FVec Ideal S128 .f32)
  (W3 : FVec Ideal S128x128 .f32) (b3 : FVec Ideal S128 .f32) (Wl : FVec Ideal S128x19 .f32) (bl : FVec Ideal S19 .f32)

/-- The edge aggregate of a node array `h`, with the normalisation the edge list gives. -/
def aggOf (h : FVec Ideal S50000x128 .f32) : FVec Ideal S50000x128 .f32 :=
  KHost.agg h (KHost.degInv (KHost.dst ei)) (KHost.src ei) (KHost.dst ei)
    (KHost.atDst (KHost.degInv (KHost.dst ei)) (KHost.dst ei))

/-- The self-loop scale the edge list gives. -/
def scaleOf : FVec Ideal S50000x1 .f32 := KHost.selfScale (KHost.degInv (KHost.dst ei))

/-- The first layer's linear output … -/
def lin1 : FVec Ideal S50000x128 .f32 := Reg0.prod x W1
/-- … the second's (the first layer combined and rectified, times the second weights) … -/
def lin2 : FVec Ideal S50000x128 .f32 :=
  Reg1.layer (lin1 x W1) (aggOf ei (lin1 x W1)) (scaleOf ei) (KHost.biasRow b1) W2
/-- … the third's … -/
def lin3 : FVec Ideal S50000x128 .f32 :=
  Reg2.layer (lin2 x ei W1 b1 W2) (aggOf ei (lin2 x ei W1 b1 W2)) (scaleOf ei) (KHost.biasRow b2) W3
/-- … and the node features after the third layer's combine. -/
def feat : FVec Ideal S50000x128 .f32 :=
  Reg3.comb (lin3 x ei W1 b1 W2 b2 W3) (aggOf ei (lin3 x ei W1 b1 W2 b2 W3)) (scaleOf ei) (KHost.biasRow b3)

/-- The program's result: the node features pooled per graph and classified, 19 columns kept. -/
def kOut : FVec Ideal S2048x19 .f32 :=
  KHost.cut (Reg4.pool (KHost.sums batch (feat x ei W1 b1 W2 b2 W3 b3)) (KHost.counts batch) (KHost.padW Wl) (KHost.padB bl))

end Value

/-! ## Steps that leave a buffer alone -/

variable (m : (ℓ : Loc nD τ sig) → Buf (Elt Ideal) ℓ) (ρ : Dev nD → PrngReg) (c : Dev nD)

/-- Closes "no operation of this stretch writes this buffer": each operation writes its one result, a different
    reference. -/
macro "no_write" : tactic => `(tactic| (
  refine List.forall_iff_forall_mem.mp ?_
  simp only [hostOps0, hostOps1, hostOps2, hostOps3, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

theorem s0 (b : Ref sig .tc) (h : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ h
theorem s1 (b : Ref sig .tc) (h : ∀ op ∈ (hostOps1 : List (HloOp τ sig (Elt Ideal))), Proc.devRef .tc b ∉ op.writes) :
    W3 m ρ c (Proc.devRef .tc b) = W2 m ρ c (Proc.devRef .tc b) :=
  StableHlo.after_of_forall_not_mem (b := Proc.devRef .tc b) _ _ h
theorem s2 (b : Ref sig .tc) (h : ∀ op ∈ (hostOps2 : List (HloOp τ sig (Elt Ideal))), Proc.devRef .tc b ∉ op.writes) :
    W5 m ρ c (Proc.devRef .tc b) = W4 m ρ c (Proc.devRef .tc b) :=
  StableHlo.after_of_forall_not_mem (b := Proc.devRef .tc b) _ _ h
theorem s3 (b : Ref sig .tc) (h : ∀ op ∈ (hostOps3 : List (HloOp τ sig (Elt Ideal))), Proc.devRef .tc b ∉ op.writes) :
    W7 m ρ c (Proc.devRef .tc b) = W6 m ρ c (Proc.devRef .tc b) :=
  StableHlo.after_of_forall_not_mem (b := Proc.devRef .tc b) _ _ h

/-! ## What the first stretch leaves, carried to where it is used -/

-- the edges' sources, at the three aggregates
theorem src2 : W2 m ρ c (Proc.devRef .tc main_v1) = KHost.src (m ((c : Thread nD τ).loc main_arg1)) :=
  (W2_of_ne m ρ c main_v1 (by decide)).trans (KHost.first_src (W0 m ρ c))
theorem src4 : W4 m ρ c (Proc.devRef .tc main_v1) = KHost.src (m ((c : Thread nD τ).loc main_arg1)) :=
  (W4_of_ne m ρ c main_v1 (by decide)).trans ((s1 m ρ c main_v1 (by no_write)).trans (src2 m ρ c))
theorem src6 : W6 m ρ c (Proc.devRef .tc main_v1) = KHost.src (m ((c : Thread nD τ).loc main_arg1)) :=
  (W6_of_ne m ρ c main_v1 (by decide)).trans ((s2 m ρ c main_v1 (by no_write)).trans (src4 m ρ c))
-- their destinations
theorem dst2 : W2 m ρ c (Proc.devRef .tc main_v3) = KHost.dst (m ((c : Thread nD τ).loc main_arg1)) :=
  (W2_of_ne m ρ c main_v3 (by decide)).trans (KHost.first_dst (W0 m ρ c))
theorem dst4 : W4 m ρ c (Proc.devRef .tc main_v3) = KHost.dst (m ((c : Thread nD τ).loc main_arg1)) :=
  (W4_of_ne m ρ c main_v3 (by decide)).trans ((s1 m ρ c main_v3 (by no_write)).trans (dst2 m ρ c))
theorem dst6 : W6 m ρ c (Proc.devRef .tc main_v3) = KHost.dst (m ((c : Thread nD τ).loc main_arg1)) :=
  (W6_of_ne m ρ c main_v3 (by decide)).trans ((s2 m ρ c main_v3 (by no_write)).trans (dst4 m ρ c))
-- the normalisation
theorem inv2 : W2 m ρ c (Proc.devRef .tc main_v10) = KHost.degInv (KHost.dst (m ((c : Thread nD τ).loc main_arg1))) :=
  (W2_of_ne m ρ c main_v10 (by decide)).trans (KHost.first_degInv (W0 m ρ c))
theorem inv4 : W4 m ρ c (Proc.devRef .tc main_v10) = KHost.degInv (KHost.dst (m ((c : Thread nD τ).loc main_arg1))) :=
  (W4_of_ne m ρ c main_v10 (by decide)).trans ((s1 m ρ c main_v10 (by no_write)).trans (inv2 m ρ c))
theorem inv6 : W6 m ρ c (Proc.devRef .tc main_v10) = KHost.degInv (KHost.dst (m ((c : Thread nD τ).loc main_arg1))) :=
  (W6_of_ne m ρ c main_v10 (by decide)).trans ((s2 m ρ c main_v10 (by no_write)).trans (inv4 m ρ c))
-- the normalisation at the destinations
theorem atd2 : W2 m ρ c (Proc.devRef .tc main_v17)
    = KHost.atDst (KHost.degInv (KHost.dst (m ((c : Thread nD τ).loc main_arg1)))) (KHost.dst (m ((c : Thread nD τ).loc main_arg1))) :=
  (W2_of_ne m ρ c main_v17 (by decide)).trans (KHost.first_atDst (W0 m ρ c))
theorem atd4 : W4 m ρ c (Proc.devRef .tc main_v17)
    = KHost.atDst (KHost.degInv (KHost.dst (m ((c : Thread nD τ).loc main_arg1)))) (KHost.dst (m ((c : Thread nD τ).loc main_arg1))) :=
  (W4_of_ne m ρ c main_v17 (by decide)).trans ((s1 m ρ c main_v17 (by no_write)).trans (atd2 m ρ c))
theorem atd6 : W6 m ρ c (Proc.devRef .tc main_v17)
    = KHost.atDst (KHost.degInv (KHost.dst (m ((c : Thread nD τ).loc main_arg1)))) (KHost.dst (m ((c : Thread nD τ).loc main_arg1))) :=
  (W6_of_ne m ρ c main_v17 (by decide)).trans ((s2 m ρ c main_v17 (by no_write)).trans (atd4 m ρ c))
-- the self-loop scale, at the three combining regions
theorem scale3 : W3 m ρ c (Proc.devRef .tc main_v19) = scaleOf (m ((c : Thread nD τ).loc main_arg1)) :=
  (s1 m ρ c main_v19 (by no_write)).trans ((W2_of_ne m ρ c main_v19 (by decide)).trans (KHost.first_selfScale (W0 m ρ c)))
-- (the scale is the third input window of the second and third regions: an input window's array ends as it was found)
theorem scale5 : W5 m ρ c (Proc.devRef .tc main_v19) = scaleOf (m ((c : Thread nD τ).loc main_arg1)) :=
  (s2 m ρ c main_v19 (by no_write)).trans
    (((W4_arr m ρ c 2).trans (((dat1 (V3 m ρ) c).arrAt_in 2 rfl _).trans (A_eq1 (V3 m ρ) c 2))).trans (scale3 m ρ c))
theorem scale7 : W7 m ρ c (Proc.devRef .tc main_v19) = scaleOf (m ((c : Thread nD τ).loc main_arg1)) :=
  (s3 m ρ c main_v19 (by no_write)).trans
    (((W6_arr m ρ c 2).trans (((dat2 (V5 m ρ) c).arrAt_in 2 rfl _).trans (A_eq2 (V5 m ρ) c 2))).trans (scale5 m ρ c))
-- the three bias rows, each at its region
theorem bias1 : W3 m ρ c (Proc.devRef .tc main_v20) = KHost.biasRow (m ((c : Thread nD τ).loc main_arg4)) :=
  (s1 m ρ c main_v20 (by no_write)).trans ((W2_of_ne m ρ c main_v20 (by decide)).trans (KHost.first_bias1 (W0 m ρ c)))
theorem bias2 : W5 m ρ c (Proc.devRef .tc main_v21) = KHost.biasRow (m ((c : Thread nD τ).loc main_arg6)) :=
  (s2 m ρ c main_v21 (by no_write)).trans ((W4_of_ne m ρ c main_v21 (by decide)).trans
    ((s1 m ρ c main_v21 (by no_write)).trans ((W2_of_ne m ρ c main_v21 (by decide)).trans (KHost.first_bias2 (W0 m ρ c)))))
theorem bias3 : W7 m ρ c (Proc.devRef .tc main_v22) = KHost.biasRow (m ((c : Thread nD τ).loc main_arg8)) :=
  (s3 m ρ c main_v22 (by no_write)).trans ((W6_of_ne m ρ c main_v22 (by decide)).trans
    ((s2 m ρ c main_v22 (by no_write)).trans ((W4_of_ne m ρ c main_v22 (by decide)).trans
      ((s1 m ρ c main_v22 (by no_write)).trans ((W2_of_ne m ρ c main_v22 (by decide)).trans (KHost.first_bias3 (W0 m ρ c)))))))

/-! ## The arguments, where they are read -/

theorem arg0_1 : W1 m ρ c (Proc.devRef .tc main_arg0) = m ((c : Thread nD τ).loc main_arg0) := s0 m ρ c main_arg0 (by no_write)
theorem arg3_1 : W1 m ρ c (Proc.devRef .tc main_arg3) = m ((c : Thread nD τ).loc main_arg3) := s0 m ρ c main_arg3 (by no_write)
theorem arg5_3 : W3 m ρ c (Proc.devRef .tc main_arg5) = m ((c : Thread nD τ).loc main_arg5) :=
  (s1 m ρ c main_arg5 (by no_write)).trans ((W2_of_ne m ρ c main_arg5 (by decide)).trans (s0 m ρ c main_arg5 (by no_write)))
theorem arg7_5 : W5 m ρ c (Proc.devRef .tc main_arg7) = m ((c : Thread nD τ).loc main_arg7) :=
  (s2 m ρ c main_arg7 (by no_write)).trans ((W4_of_ne m ρ c main_arg7 (by decide)).trans
    ((s1 m ρ c main_arg7 (by no_write)).trans ((W2_of_ne m ρ c main_arg7 (by decide)).trans (s0 m ρ c main_arg7 (by no_write)))))
/-- An argument that no region takes as a window array and no stretch writes reaches the last stretch as launched. -/
theorem late (b : Ref sig .tc) (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps2 : List (HloOp τ sig (Elt Ideal))), Proc.devRef .tc b ∉ op.writes)
    (h3 : ∀ op ∈ (hostOps3 : List (HloOp τ sig (Elt Ideal))), Proc.devRef .tc b ∉ op.writes)
    (r0 : ∀ w, Pipeline.arrRef spec0 w ≠ b) (r1 : ∀ w, Pipeline.arrRef spec1 w ≠ b)
    (r2 : ∀ w, Pipeline.arrRef spec2 w ≠ b) (r3 : ∀ w, Pipeline.arrRef spec3 w ≠ b) :
    W8 m ρ c (Proc.devRef .tc b) = m ((c : Thread nD τ).loc b) :=
  (W8_of_ne m ρ c b r3).trans ((s3 m ρ c b h3).trans ((W6_of_ne m ρ c b r2).trans ((s2 m ρ c b h2).trans
    ((W4_of_ne m ρ c b r1).trans ((s1 m ρ c b h1).trans ((W2_of_ne m ρ c b r0).trans (s0 m ρ c b h0)))))))
theorem arg2_8 : W8 m ρ c (Proc.devRef .tc main_arg2) = m ((c : Thread nD τ).loc main_arg2) :=
  late m ρ c main_arg2 (by no_write) (by no_write) (by no_write) (by no_write) (by decide) (by decide) (by decide) (by decide)
theorem arg9_8 : W8 m ρ c (Proc.devRef .tc main_arg9) = m ((c : Thread nD τ).loc main_arg9) :=
  late m ρ c main_arg9 (by no_write) (by no_write) (by no_write) (by no_write) (by decide) (by decide) (by decide) (by decide)
theorem arg10_8 : W8 m ρ c (Proc.devRef .tc main_arg10) = m ((c : Thread nD τ).loc main_arg10) :=
  late m ρ c main_arg10 (by no_write) (by no_write) (by no_write) (by no_write) (by decide) (by decide) (by decide) (by decide)

/-! ## The chain of results -/

/-- After the first region: the first layer's linear output. -/
theorem lin1_at : W2 m ρ c (Proc.devRef .tc main_v23)
    = lin1 (m ((c : Thread nD τ).loc main_arg0)) (m ((c : Thread nD τ).loc main_arg3)) := by
  refine ((W2_arr m ρ c 2).trans (Reg0.final (V1 m ρ) c)).trans ?_
  show Reg0.prod (W1 m ρ c (Proc.devRef .tc main_arg0)) (W1 m ρ c (Proc.devRef .tc main_arg3)) = _
  rw [arg0_1, arg3_1]; rfl

/-- After the second stretch: its aggregate. -/
theorem agg1_at : W3 m ρ c (Proc.devRef .tc main_v41)
    = aggOf (m ((c : Thread nD τ).loc main_arg1)) (lin1 (m ((c : Thread nD τ).loc main_arg0)) (m ((c : Thread nD τ).loc main_arg3))) := by
  refine (KHost.agg1 (W2 m ρ c)).trans ?_
  rw [lin1_at, inv2, src2, dst2, atd2]; rfl

/-- After the second region: the second layer's linear output. -/
theorem lin2_at : W4 m ρ c (Proc.devRef .tc main_v42)
    = lin2 (m ((c : Thread nD τ).loc main_arg0)) (m ((c : Thread nD τ).loc main_arg1)) (m ((c : Thread nD τ).loc main_arg3))
        (m ((c : Thread nD τ).loc main_arg4)) (m ((c : Thread nD τ).loc main_arg5)) := by
  refine ((W4_arr m ρ c 5).trans (Reg1.final (V3 m ρ) c)).trans ?_
  show Reg1.layer (W3 m ρ c (Proc.devRef .tc main_v23)) (W3 m ρ c (Proc.devRef .tc main_v41)) (W3 m ρ c (Proc.devRef .tc main_v19))
    (W3 m ρ c (Proc.devRef .tc main_v20)) (W3 m ρ c (Proc.devRef .tc main_arg5)) = _
  rw [s1 m ρ c main_v23 (by no_write), lin1_at, agg1_at, scale3, bias1, arg5_3]; rfl

theorem agg2_at : W5 m ρ c (Proc.devRef .tc main_v60)
    = aggOf (m ((c : Thread nD τ).loc main_arg1)) (lin2 (m ((c : Thread nD τ).loc main_arg0)) (m ((c : Thread nD τ).loc main_arg1))
        (m ((c : Thread nD τ).loc main_arg3)) (m ((c : Thread nD τ).loc main_arg4)) (m ((c : Thread nD τ).loc main_arg5))) := by
  refine (KHost.agg2 (W4 m ρ c)).trans ?_
  rw [lin2_at, inv4, src4, dst4, atd4]; rfl

/-- After the third region: the third layer's linear output. -/
theorem lin3_at : W6 m ρ c (Proc.devRef .tc main_v61)
    = lin3 (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) := by
  refine ((W6_arr m ρ c 5).trans (Reg2.final (V5 m ρ) c)).trans ?_
  show Reg2.layer (W5 m ρ c (Proc.devRef .tc main_v42)) (W5 m ρ c (Proc.devRef .tc main_v60)) (W5 m ρ c (Proc.devRef .tc main_v19))
    (W5 m ρ c (Proc.devRef .tc main_v21)) (W5 m ρ c (Proc.devRef .tc main_arg7)) = _
  rw [s2 m ρ c main_v42 (by no_write), lin2_at, agg2_at, scale5, bias2, arg7_5]; rfl

theorem agg3_at : W7 m ρ c (Proc.devRef .tc main_v79)
    = aggOf (m ((c : Thread nD τ).loc main_arg1)) (lin3 (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) (m ((c : Thread nD τ).loc main_arg7))) := by
  refine (KHost.agg3 (W6 m ρ c)).trans ?_
  rw [lin3_at, inv6, src6, dst6, atd6]; rfl

/-- After the fourth region: the node features. -/
theorem feat_at : W8 m ρ c (Proc.devRef .tc main_v80)
    = feat (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) := by
  refine ((W8_arr m ρ c 4).trans (Reg3.final (V7 m ρ) c)).trans ?_
  show Reg3.comb (W7 m ρ c (Proc.devRef .tc main_v61)) (W7 m ρ c (Proc.devRef .tc main_v79)) (W7 m ρ c (Proc.devRef .tc main_v19))
    (W7 m ρ c (Proc.devRef .tc main_v22)) = _
  rw [s3 m ρ c main_v61 (by no_write), lin3_at, agg3_at, scale7, bias3]; rfl

/-- THE RESULT BUFFER at the end of the fold. -/
theorem result_at : W11 m ρ c (Proc.devRef .tc main_v97)
    = kOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (KHost.tail_cut (W10 m ρ c)).trans ?_
  refine (congrArg KHost.cut ((W10_arr m ρ c 4).trans (Reg4.final (V9 m ρ) c))).trans ?_
  show KHost.cut (Reg4.pool (W9 m ρ c (Proc.devRef .tc main_v83)) (W9 m ρ c (Proc.devRef .tc main_v88))
    (W9 m ρ c (Proc.devRef .tc main_v91)) (W9 m ρ c (Proc.devRef .tc main_v95))) = _
  rw [show W9 m ρ c (Proc.devRef .tc main_v83) = _ from KHost.last_sums (W8 m ρ c),
    show W9 m ρ c (Proc.devRef .tc main_v88) = _ from KHost.last_counts (W8 m ρ c),
    show W9 m ρ c (Proc.devRef .tc main_v91) = _ from KHost.last_padW (W8 m ρ c),
    show W9 m ρ c (Proc.devRef .tc main_v95) = _ from KHost.last_padB (W8 m ρ c),
    feat_at, arg2_8, arg9_8, arg10_8]
  rfl

end Cert.KernelIdeal.KFold

end
-- ==== Proof.RefTerm.lean ====
/-
  The idealized reference program's result as one function of its eleven arguments, in the reference's own order
  of operations.

  Three graph-convolution layers — a linear map, then for every edge the source's row times the product of the two
  endpoint normalisations summed into the destination's row, plus the node's own row times its normalisation squared,
  plus the bias — with the rectifier after the first two; then the rows summed per graph and divided by the graph's
  node count (at least one); then the classifier's linear map and bias.
-/
import proofs.«105139_j5488968204991_2_alg».proof.Proof.Gen.ReferenceIdeal.Read

set_option maxRecDepth 16384

noncomputable section

namespace Cert.ReferenceIdeal.RHost

open Cert.ReferenceIdeal Cert.ReferenceIdeal.Gen Cert.ReferenceIdeal.Read
open Idealize.ShloMosaic Idealize.ShloMosaic.TcCoe Idealize.SL.Sem

/-- The edges' source nodes: the first row of the edge list, flattened. -/
def src (ei : IVec S2x800000 32) : IVec S800000 32 :=
  shapeCast S800000 (extractStridedSlice S1x800000 ![0, 0] ei slices_S2x800000_S1x800000_0_0) shapeCasts_S1x800000_S800000

/-- The edges' destination nodes: the second row, flattened. -/
def dst (ei : IVec S2x800000 32) : IVec S800000 32 :=
  shapeCast S800000 (extractStridedSlice S1x800000 ![1, 0] ei slices_S2x800000_S1x800000_1_0) shapeCasts_S1x800000_S800000

/-- The degree normalisation: one over the square root of (edges ending at the node, plus one). -/
def degInv (d : IVec S800000 32) : FVec Ideal S50000 .f32 :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 d)
      (broadcastInDim S800000 ![] bcast_S_S800000 (constant S_ .f32 0x3F800000#32)))
    (broadcastInDim S50000 ![] bcast_S_S50000 (constant S_ .f32 0x3F800000#32)))

/-- Node numbers as gather start indices: a negative number wraps by the node count; one index per row. -/
def wrap (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- An edge's weight: the product of its two endpoints' normalisations. -/
def norm (dinv : FVec Ideal S50000 .f32) (s d : IVec S800000 32) : FVec Ideal S800000 .f32 :=
  mulf (Host.gather gather_S50000_S800000x1_S800000_n_0_n_n_0_1_1 dinv (wrap s))
    (Host.gather gather_S50000_S800000x1_S800000_n_0_n_n_0_1_1 dinv (wrap d))

/-- The edges' messages: the source's row times the edge's weight. -/
def msg (h : FVec Ideal S50000x128 .f32) (dinv : FVec Ideal S50000 .f32) (s d : IVec S800000 32) : FVec Ideal S800000x128 .f32 :=
  mulf (Host.gather gather_S50000x128_S800000x1_S800000x128_1_0_n_n_0_1_1128 h (wrap s))
    (broadcastInDim S800000x128 ![0, 1] bcast_S800000x1_S800000x128_0_1
      (broadcastInDim S800000x1 ![0] bcast_S800000_S800000x1_0 (norm dinv s d)))

/-- The edge aggregate: the messages summed into their destinations' rows. -/
def agg (h : FVec Ideal S50000x128 .f32) (dinv : FVec Ideal S50000 .f32) (s d : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (msg h dinv s d)

/-- One layer's combine: aggregate, plus the self-loop term, plus the bias. -/
def conv (h : FVec Ideal S50000x128 .f32) (dinv : FVec Ideal S50000 .f32) (s d : IVec S800000 32) (b : FVec Ideal S128 .f32) :
    FVec Ideal S50000x128 .f32 :=
  addf (addf (agg h dinv s d)
      (mulf h (broadcastInDim S50000x128 ![0, 1] bcast_S50000x1_S50000x128_0_1
        (broadcastInDim S50000x1 ![0] bcast_S50000_S50000x1_0 (mulf dinv dinv)))))
    (broadcastInDim S50000x128 ![0, 1] bcast_S1x128_S50000x128_0_1 (broadcastInDim S1x128 ![1] bcast_S128_S1x128_1 b))

/-- The rectifier. -/
def relu (y : FVec Ideal S50000x128 .f32) : FVec Ideal S50000x128 .f32 :=
  maximumf y (broadcastInDim S50000x128 ![] bcast_S_S50000x128 (constant S_ .f32 0x00000000#32))

section Value

variable (x : FVec Ideal S50000x11 .f32) (ei : IVec S2x800000 32) (batch : IVec S50000 32)
  (W1 : FVec Ideal S11x128 .f32) (b1 : FVec Ideal S128 .f32) (W2 : FVec Ideal S128x128 .f32) (b2 : FVec Ideal S128 .f32)
  (W3 : FVec Ideal S128x128 .f32) (b3 : FVec Ideal S128 .f32) (Wl : FVec Ideal S128x19 .f32) (bl : FVec Ideal S19 .f32)

/-- The three layers' linear outputs … -/
def lin1 : FVec Ideal S50000x128 .f32 := Host.dotGeneral dot_S50000x11_S11x128_S50000x128_1_0_0_1_n_n none x W1
def lin2 : FVec Ideal S50000x128 .f32 :=
  Host.dotGeneral dot_S50000x128_S128x128_S50000x128_1_0_0_1_n_n none
    (relu (conv (lin1 x W1) (degInv (dst ei)) (src ei) (dst ei) b1)) W2
def lin3 : FVec Ideal S50000x128 .f32 :=
  Host.dotGeneral dot_S50000x128_S128x128_S50000x128_1_0_0_1_n_n none
    (relu (conv (lin2 x ei W1 b1 W2) (degInv (dst ei)) (src ei) (dst ei) b2)) W3
/-- … and the node features after the third layer. -/
def feat : FVec Ideal S50000x128 .f32 := conv (lin3 x ei W1 b1 W2 b2 W3) (degInv (dst ei)) (src ei) (dst ei) b3

/-- The node rows summed per graph. -/
def sums (h : FVec Ideal S50000x128 .f32) : FVec Ideal S2048x128 .f32 :=
  Host.scatterAdd scatter_S2048x128_S50000x1_S50000x128_1_0_0_1
    (broadcastInDim S2048x128 ![] bcast_S_S2048x128 (constant S_ .f32 0x00000000#32))
    (broadcastInDim S50000x1 ![0] bcast_S50000_S50000x1_0 batch) h

/-- The nodes counted per graph. -/
def counts : FVec Ideal S2048 .f32 :=
  Host.scatterAdd scatter_S2048_S50000x1_S50000_n_0_0_1
    (broadcastInDim S2048 ![] bcast_S_S2048 (constant S_ .f32 0x00000000#32))
    (broadcastInDim S50000x1 ![0] bcast_S50000_S50000x1_0 batch)
    (broadcastInDim S50000 ![] bcast_S_S50000 (constant S_ .f32 0x3F800000#32))

/-- The mean pool and the classifier, from per-graph sums `Sm` and counts `cnt`. -/
def head (Sm : FVec Ideal S2048x128 .f32) (cnt : FVec Ideal S2048 .f32) : FVec Ideal S2048x19 .f32 :=
  addf
    (Host.dotGeneral dot_S2048x128_S128x19_S2048x19_1_0_0_1_n_n none
      (Host.divf Sm (broadcastInDim S2048x128 ![0, 1] bcast_S2048x1_S2048x128_0_1
        (broadcastInDim S2048x1 ![0] bcast_S2048_S2048x1_0
          (maximumf cnt (broadcastInDim S2048 ![] bcast_S_S2048 (constant S_ .f32 0x3F800000#32))))))
      Wl)
    (broadcastInDim S2048x19 ![0, 1] bcast_S1x19_S2048x19_0_1 (broadcastInDim S1x19 ![1] bcast_S19_S1x19_1 bl))

/-- The reference's result. -/
def out : FVec Ideal S2048x19 .f32 := head Wl bl (sums batch (feat x ei W1 b1 W2 b2 W3 b3)) (counts batch)

/-- The composed term of the reference's operations is this function: the same operations on the same operands, the
    three recomputations of the normalisation being one term. -/
theorem val_eq : val_main_v153 (F := Ideal) x ei batch W1 b1 W2 b2 W3 b3 Wl bl = out x ei batch W1 b1 W2 b2 W3 b3 Wl bl := rfl

end Value

end Cert.ReferenceIdeal.RHost

end
-- ==== Proof.LibGatherRows.lean ====
/-
  A gather of ROWS read at an index.

  Indexing a flat array `x : [N]` or a matrix `X : [N, H]` by an integer array, `x[idx]` and `X[idx, :]`, is a
  `stablehlo.gather` whose start indices have shape `[E, 1]` (the index vector on axis 1, one component), that one
  component mapped to operand axis 0, operand axis 0 collapsed (slice size 1 there), no batching axes; for the matrix
  the second operand axis is kept whole (slice size `H`) and is the result's one offset axis.

  StableHLO reads every start index as a SIGNED integer and CLAMPS it so that the slice fits: on axis 0 the slice has
  size 1, so the start `idx[e, 0]` is clamped into `[0, N - 1]`. That clamped number is `row N hN idx e`. The two
  theorems say that result element `e` of the vector gather is `x[row e]`, and result element `(e, h)` of the row
  gather is `X[row e, h]`: BOTH FORMS READ THE SAME ROW, so a matrix scaled row by row and then gathered is the
  gathered rows times the gathered scale.

  The statements take an arbitrary record of dimension numbers and the values of its fields as hypotheses (each is
  `rfl` at a record written as a literal). The proofs compute StableHLO's operand index axis by axis: on axis 0 it is
  the clamped start (no batching coordinate, and no offset coordinate since the axis is collapsed); on the matrix's
  axis 1 the start is 0 (the start index map does not name it) and the offset coordinate is the result's second
  coordinate.
-/
import Idealize.ShloMosaic.Lib.ValueIdx

noncomputable section

namespace GatherRows

open Idealize.ShloMosaic Idealize.ShloMosaic.ValueIdx

variable {α : Type}

/-- The row that result position `e` reads: the start index `idx[e, 0]` read as a signed integer and clamped into
    `[0, N - 1]`. -/
def row (N : Nat) (hN : 0 < N) {E w : Nat} (idx : IVec ⟨2, ![E, 1]⟩ w) (e : Fin E) : Fin N :=
  ⟨min (idx (ix2 e (0 : Fin 1))).toInt.toNat (N - 1), by omega⟩

/-- The row as a natural number. -/
theorem row_val (N : Nat) (hN : 0 < N) {E w : Nat} (idx : IVec ⟨2, ![E, 1]⟩ w) (e : Fin E) :
    (row N hN idx e).val = min (idx (ix2 e (0 : Fin 1))).toInt.toNat (N - 1) := rfl

/-- VECTOR form, as an operand index: result position `e` reads the operand at `row e`. -/
theorem operandIdx_vec {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (idx : IVec ⟨2, ![E, 1]⟩ w) (y : (⟨1, ![E]⟩ : Shape).Idx) :
    d.operandIdx y idx = ix1 (row N hN idx (y 0)) := by
  -- with the fields' values substituted the record is a literal, and its lists compute
  obtain ⟨od, cd, ob, sb, sm, iv, ss, wf⟩ := d
  simp only at hoff hcol hob hmap hiv hsl
  subst hoff hcol hob hmap hiv hsl
  funext a
  obtain rfl : a = 0 := Subsingleton.elim _ _
  refine Fin.ext ?_
  show GatherDims.start _ y idx 0 + GatherDims.batchCoord _ y 0 + GatherDims.offCoord _ y 0 = _
  -- no batching axis, and axis 0 is collapsed: only the clamped start is left
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hmem : (0 : Fin 1) ∈ ([0] : List (Fin 1)) := List.mem_singleton.mpr rfl
  rw [dif_pos hmem]
  -- the start index is read at `[e, 0]`
  have hsi : GatherDims.siIdx (s := ⟨1, ![N]⟩) (si := ⟨2, ![E, 1]⟩) (t := ⟨1, ![E]⟩)
      ⟨[], [0], [], sb, [0], 1, ![1], wf⟩ y
      ⟨List.idxOf (0 : Fin 1) [0], List.idxOf_lt_length_iff.2 hmem⟩ = ix2 (y 0) (0 : Fin 1) := by
    funext b; refine Fin.ext ?_
    match b with
    | ⟨0, _⟩ => rfl
    | ⟨1, _⟩ => rfl
  rw [hsi]
  rfl

/-- ROW form, as an operand index: result position `(e, h)` reads the operand at `(row e, h)`. -/
theorem operandIdx_rows {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (idx : IVec ⟨2, ![E, 1]⟩ w) (y : (⟨2, ![E, H]⟩ : Shape).Idx) :
    d.operandIdx y idx = ix2 (row N hN idx (y 0)) (y 1) := by
  obtain ⟨od, cd, ob, sb, sm, iv, ss, wf⟩ := d
  simp only at hoff hcol hob hmap hiv hsl
  subst hoff hcol hob hmap hiv hsl
  funext a
  refine Fin.ext ?_
  match a with
  | ⟨0, _⟩ =>
    -- axis 0: collapsed, in the start index map — the clamped start, as in the vector form
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hmem : (0 : Fin 2) ∈ ([0] : List (Fin 2)) := List.mem_singleton.mpr rfl
    rw [dif_pos hmem]
    have hsi : GatherDims.siIdx (s := ⟨2, ![N, H]⟩) (si := ⟨2, ![E, 1]⟩) (t := ⟨2, ![E, H]⟩)
        ⟨[1], [0], [], sb, [0], 1, ![1, H], wf⟩ y
        ⟨List.idxOf (0 : Fin 2) [0], List.idxOf_lt_length_iff.2 hmem⟩ = ix2 (y 0) (0 : Fin 1) := by
      funext b; refine Fin.ext ?_
      match b with
      | ⟨0, _⟩ => rfl
      | ⟨1, _⟩ => rfl
    rw [hsi]
    rfl
  | ⟨1, _⟩ =>
    -- axis 1: not in the start index map (start 0), kept whole — the result's offset coordinate
    show GatherDims.start _ y idx 1 + GatherDims.batchCoord _ y 1 + GatherDims.offCoord _ y 1 = (y 1).val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr
      ⟨(show (1 : Fin 2) ∉ ([0] : List (Fin 2)) by decide), List.not_mem_nil⟩)]
    simp only [Nat.zero_add]
    rfl

/-- THE VECTOR GATHER READ AT `e`: the operand at the start index `idx[e, 0]`, read signed and clamped into
    `[0, N - 1]`. -/
theorem gather_vec_apply {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (x : (⟨1, ![N]⟩ : Shape).Idx → α) (idx : IVec ⟨2, ![E, 1]⟩ w) (y : (⟨1, ![E]⟩ : Shape).Idx) :
    Host.gather d x idx y = x (ix1 (row N hN idx (y 0))) := by
  exact congrArg x (operandIdx_vec hN d hoff hcol hob hmap hiv hsl idx y)

/-- THE ROW GATHER READ AT `(e, h)`: the operand's row at the start index `idx[e, 0]`, read signed and clamped
    into `[0, N - 1]`, at column `h` — the same row as the vector gather reads. -/
theorem gather_rows_apply {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (X : (⟨2, ![N, H]⟩ : Shape).Idx → α) (idx : IVec ⟨2, ![E, 1]⟩ w) (y : (⟨2, ![E, H]⟩ : Shape).Idx) :
    Host.gather d X idx y = X (ix2 (row N hN idx (y 0)) (y 1)) := by
  exact congrArg X (operandIdx_rows hN d hoff hcol hob hmap hiv hsl idx y)

end GatherRows

end
-- ==== Proof.LibRowBroadcast.lean ====
/-
  A vector spread over a matrix, read at an entry.

  A length-`N` vector made a column and then repeated along `H` columns has, at `(r, j)`, the vector's entry `r`;
  a length-`H` vector made a row and then repeated down `N` rows has, at `(r, j)`, the vector's entry `j`;
  and a length-`N` vector reshaped to an `N × 1` column has, at `(r, 0)`, the vector's entry `r`.
-/
import Idealize.ShloMosaic.Lib.Pipeline.Value
import Idealize.ShloMosaic.Lib.ValueIdx

noncomputable section

open Idealize.ShloMosaic Idealize.ShloMosaic.ValueIdx

namespace RowBroadcast

variable {α : Type} {N H : ℕ}

/-- A vector as a column … -/
theorem col_apply (h : (⟨1, ![N]⟩ : Shape).BroadcastsInDim ⟨2, ![N, 1]⟩ ![0]) (v : (⟨1, ![N]⟩ : Shape).Idx → α)
    (r : Fin N) (u : Fin 1) : broadcastInDim ⟨2, ![N, 1]⟩ ![0] h v (ix2 r u) = v (ix1 r) := by
  refine broadcastInDim_apply ![0] h v (ix2 r u) (ix1 r) fun a => ?_
  match a with
  | ⟨0, _⟩ =>
    show r.val = if N = 1 then 0 else r.val
    split
    · have := r.isLt; omega
    · rfl

/-- … repeated along the columns: entry `(r, j)` is the vector's entry `r`. -/
theorem rows_apply (h1 : (⟨1, ![N]⟩ : Shape).BroadcastsInDim ⟨2, ![N, 1]⟩ ![0])
    (h2 : (⟨2, ![N, 1]⟩ : Shape).BroadcastsInDim ⟨2, ![N, H]⟩ ![0, 1]) (v : (⟨1, ![N]⟩ : Shape).Idx → α)
    (r : Fin N) (j : Fin H) :
    broadcastInDim ⟨2, ![N, H]⟩ ![0, 1] h2 (broadcastInDim ⟨2, ![N, 1]⟩ ![0] h1 v) (ix2 r j) = v (ix1 r) := by
  refine (broadcastInDim_apply ![0, 1] h2 _ (ix2 r j) (ix2 r (0 : Fin 1)) fun a => ?_).trans (col_apply h1 v r 0)
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- A vector as a row, repeated down the rows: entry `(r, j)` is the vector's entry `j`. -/
theorem cols_apply (h1 : (⟨1, ![H]⟩ : Shape).BroadcastsInDim ⟨2, ![1, H]⟩ ![1])
    (h2 : (⟨2, ![1, H]⟩ : Shape).BroadcastsInDim ⟨2, ![N, H]⟩ ![0, 1]) (v : (⟨1, ![H]⟩ : Shape).Idx → α)
    (r : Fin N) (j : Fin H) :
    broadcastInDim ⟨2, ![N, H]⟩ ![0, 1] h2 (broadcastInDim ⟨2, ![1, H]⟩ ![1] h1 v) (ix2 r j) = v (ix1 j) := by
  refine (broadcastInDim_apply ![0, 1] h2 _ (ix2 r j) (ix2 (0 : Fin 1) j) fun a => ?_).trans
    (broadcastInDim_apply ![1] h1 v (ix2 (0 : Fin 1) j) (ix1 j) fun a => ?_)
  · match a with
    | ⟨0, _⟩ =>
      show 0 = if (1 : ℕ) = 1 then 0 else r.val
      rw [if_pos rfl]
    | ⟨1, _⟩ =>
      show j.val = if H = 1 then 0 else j.val
      split
      · have := j.isLt; omega
      · rfl
  · match a with
    | ⟨0, _⟩ =>
      show j.val = if H = 1 then 0 else j.val
      split
      · have := j.isLt; omega
      · rfl

/-- A vector reshaped to a column: entry `(r, 0)` is the vector's entry `r`. -/
theorem reshape_col_apply (x : (⟨1, ![N]⟩ : Shape).Idx → α) (h : (⟨1, ![N]⟩ : Shape).ShapeCasts ⟨2, ![N, 1]⟩)
    (r : Fin N) (u : Fin 1) : shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end RowBroadcast

end
-- ==== Proof.BridgeMsg.lean ====
/-
  The two programs' edge aggregates are one function.

  For an edge `e` with source row `r_s` and destination row `r_d` (the edge list's entries, wrapped and clamped as a
  gather reads them) and a feature column `j`, the kernel's message is `(h (r_s, j) · ν (r_s)) · ν (r_d)` — the node rows
  scaled by the normalisation `ν` before the gather, the destination's factor after it — and the reference's is
  `h (r_s, j) · (ν (r_s) · ν (r_d))`.  Multiplication of extended reals is associative, so the messages agree, and both
  programs sum them into the destinations' rows by the same operation.
-/
import proofs.«105139_j5488968204991_2_alg».proof.Proof.KernelHost
import proofs.«105139_j5488968204991_2_alg».proof.Proof.RefTerm
import proofs.«105139_j5488968204991_2_alg».proof.Proof.LibGatherRows
import proofs.«105139_j5488968204991_2_alg».proof.Proof.LibRowBroadcast
import Idealize.ShloMosaic.Lib.ValueIdx

set_option maxRecDepth 16384

noncomputable section

namespace Cert.Bridge

open Cert.KernelIdeal Cert.KernelIdeal.Gen
open Idealize.ShloMosaic Idealize.ShloMosaic.ValueIdx

/-! ## The shared pieces are the same terms -/

theorem src_eq (ei : IVec S2x800000 32) : KHost.src ei = ReferenceIdeal.RHost.src ei := rfl
theorem dst_eq (ei : IVec S2x800000 32) : KHost.dst ei = ReferenceIdeal.RHost.dst ei := rfl
theorem degInv_eq (d : IVec S800000 32) : KHost.degInv d = ReferenceIdeal.RHost.degInv d := rfl
theorem wrap_eq (s : IVec S800000 32) : KHost.wrap s = ReferenceIdeal.RHost.wrap s := rfl

/-! ## The messages -/

/-- The node an edge's start index reads: the index word, signed, clamped into the node range. -/
abbrev node (idx : IVec S800000x1 32) (e : Fin 800000) : Fin 50000 := GatherRows.row 50000 (by decide) idx e

variable (h : FVec Ideal S50000x128 .f32) (dinv : FVec Ideal S50000 .f32) (s d : IVec S800000 32)

/-- The kernel's message at an edge and a column. -/
theorem kernel_msg_at (e : Fin 800000) (j : Fin 128) :
    KHost.msg h dinv s (KHost.atDst dinv d) (ix2 e j)
      = (h (ix2 (node (KHost.wrap s) e) j) * dinv (ix1 (node (KHost.wrap s) e))) * dinv (ix1 (node (KHost.wrap d) e)) := by
  unfold KHost.msg KHost.atDst
  simp only [mulf_apply, extf_apply]
  rw [GatherRows.gather_rows_apply (by decide) gather_S50000x128_S800000x1_S800000x128_1_0_n_n_0_1_1128 rfl rfl rfl rfl rfl rfl,
    RowBroadcast.rows_apply, GatherRows.gather_vec_apply (by decide) gather_S50000_S800000x1_S800000_n_0_n_n_0_1_1 rfl rfl rfl rfl rfl rfl]
  simp only [truncf_apply, mulf_apply]
  rw [RowBroadcast.rows_apply]

/-- The reference's message at an edge and a column. -/
theorem reference_msg_at (e : Fin 800000) (j : Fin 128) :
    ReferenceIdeal.RHost.msg h dinv s d (ix2 e j)
      = h (ix2 (node (KHost.wrap s) e) j) * (dinv (ix1 (node (KHost.wrap s) e)) * dinv (ix1 (node (KHost.wrap d) e))) := by
  unfold ReferenceIdeal.RHost.msg ReferenceIdeal.RHost.norm
  rw [← wrap_eq, ← wrap_eq]
  simp only [mulf_apply]
  rw [GatherRows.gather_rows_apply (by decide) ReferenceIdeal.gather_S50000x128_S800000x1_S800000x128_1_0_n_n_0_1_1128 rfl rfl rfl rfl rfl rfl,
    RowBroadcast.rows_apply]
  simp only [mulf_apply]
  rw [GatherRows.gather_vec_apply (by decide) ReferenceIdeal.gather_S50000_S800000x1_S800000_n_0_n_n_0_1_1 rfl rfl rfl rfl rfl rfl,
    GatherRows.gather_vec_apply (by decide) ReferenceIdeal.gather_S50000_S800000x1_S800000_n_0_n_n_0_1_1 rfl rfl rfl rfl rfl rfl]

/-- THE MESSAGES AGREE: the product of three extended reals does not depend on its grouping. -/
theorem msg_eq : KHost.msg h dinv s (KHost.atDst dinv d) = ReferenceIdeal.RHost.msg h dinv s d := by
  funext y
  obtain ⟨e, j, rfl⟩ : ∃ (e : Fin 800000) (j : Fin 128), y = ix2 e j := ⟨y 0, y 1, eq_ix2 y⟩
  rw [kernel_msg_at, reference_msg_at]
  exact mul_assoc _ _ _

/-- Hence the aggregates agree: the same sum into the destinations' rows of equal messages. -/
theorem agg_eq : KHost.agg h dinv s d (KHost.atDst dinv d) = ReferenceIdeal.RHost.agg h dinv s d := by
  unfold KHost.agg ReferenceIdeal.RHost.agg
  rw [msg_eq]
  rfl

end Cert.Bridge

end
-- ==== Proof.LibDot.lean ====
/-
  A plain matrix product computed by the host's general contraction, read at an entry, over the extended reals.

  For dimension numbers that contract the left operand's second axis with the right operand's first and have no
  batch axis, the contraction `[M, K] × [K, N] → [M, N]` has at the entry `(p, q)` the value
  `∑ k, lhs (p, k) * rhs (k, q)` — the same textbook sum a product accumulated into the zero matrix has.
-/
import proofs.«105139_j5488968204991_2_alg».proof.Proof.LibMatmul

noncomputable section

open scoped BigOperators
open Idealize.ShloMosaic Idealize.ShloMosaic.ValueIdx

namespace PlainMatmul

variable {M K N : ℕ}
variable {d : DotDims (⟨2, ![M, K]⟩ : Shape) (⟨2, ![K, N]⟩ : Shape) (⟨2, ![M, N]⟩ : Shape)}

/-- The host's contraction with plain dimension numbers, at the entry `(p, q)`, is the sum over the contracted axis
    of the products of the left operand's row `p` with the right operand's column `q`. -/
theorem host_apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    Host.dotGeneral d prec lhs rhs (ix2 p q) = ∑ k : Fin K, (lhs (ix2 p k) : EReal) * (rhs (ix2 k q) : EReal) := by
  simp only [Host.dotGeneral]
  rw [Ideal.dotGeneral_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.BridgeLayer.lean ====
/-
  The regions' results are the reference's layer operations.

  Entry by entry: the first region's product is the host's contraction of the same two arrays; a combining region's
  `∑ k, max (B + A · S + b, 0) · W` with `S` the normalisation squared as a column and `b` the bias as a row is the
  host's contraction of the rectified `(B + A · ν²) + b` (the square spread along the rows, the bias down them) with
  `W`; and the last combine is `(B + A · ν²) + b` itself.  Nothing is regrouped: the two sides are the same sums of
  the same products.
-/
import proofs.«105139_j5488968204991_2_alg».proof.Proof.KernelHost
import proofs.«105139_j5488968204991_2_alg».proof.Proof.RefTerm
import proofs.«105139_j5488968204991_2_alg».proof.Proof.Region0
import proofs.«105139_j5488968204991_2_alg».proof.Proof.Region1
import proofs.«105139_j5488968204991_2_alg».proof.Proof.Region2
import proofs.«105139_j5488968204991_2_alg».proof.Proof.Region3
import proofs.«105139_j5488968204991_2_alg».proof.Proof.LibDot
import proofs.«105139_j5488968204991_2_alg».proof.Proof.LibRowBroadcast
import Idealize.ShloMosaic.Lib.ValueLayout
import Idealize.ShloMosaic.Lib.ValueIdx

set_option maxRecDepth 16384

noncomputable section

open scoped BigOperators

namespace Cert.Bridge

open Cert.KernelIdeal Cert.KernelIdeal.Gen
open Idealize.ShloMosaic Idealize.ShloMosaic.ValueIdx

/-- The reference's combine of a linear output `A` with ANY aggregate `B`: `(B + A · ν²) + b`. -/
def combineR (A B : FVec Ideal S50000x128 .f32) (dinv : FVec Ideal S50000 .f32) (b : FVec Ideal S128 .f32) :
    FVec Ideal S50000x128 .f32 :=
  addf (addf B
      (mulf A (broadcastInDim S50000x128 ![0, 1] ReferenceIdeal.Gen.bcast_S50000x1_S50000x128_0_1
        (broadcastInDim S50000x1 ![0] ReferenceIdeal.Gen.bcast_S50000_S50000x1_0 (mulf dinv dinv)))))
    (broadcastInDim S50000x128 ![0, 1] ReferenceIdeal.Gen.bcast_S1x128_S50000x128_0_1
      (broadcastInDim S1x128 ![1] ReferenceIdeal.Gen.bcast_S128_S1x128_1 b))

/-- The reference's layer combine is that, at its own aggregate. -/
theorem conv_eq (h : FVec Ideal S50000x128 .f32) (dinv : FVec Ideal S50000 .f32) (s d : IVec S800000 32) (b : FVec Ideal S128 .f32) :
    ReferenceIdeal.RHost.conv h dinv s d b = combineR h (ReferenceIdeal.RHost.agg h dinv s d) dinv b := rfl

variable (A B : FVec Ideal S50000x128 .f32) (dinv : FVec Ideal S50000 .f32) (b : FVec Ideal S128 .f32)

/-- The reference's combine at an entry. -/
theorem combineR_at (r : Fin 50000) (k : Fin 128) :
    combineR A B dinv b (ix2 r k) = B (ix2 r k) + A (ix2 r k) * (dinv (ix1 r) * dinv (ix1 r)) + b (ix1 k) := by
  unfold combineR
  simp only [addf_apply, mulf_apply]
  rw [RowBroadcast.rows_apply, RowBroadcast.cols_apply]
  simp only [mulf_apply]

/-- The kernel's self-loop scale and bias row at an entry. -/
theorem selfScale_at (r : Fin 50000) : KHost.selfScale dinv (ix2 r (0 : Fin 1)) = dinv (ix1 r) * dinv (ix1 r) := by
  unfold KHost.selfScale
  rw [RowBroadcast.reshape_col_apply]
  simp only [mulf_apply]
theorem biasRow_at (k : Fin 128) : KHost.biasRow b (ix2 (0 : Fin 1) k) = b (ix1 k) := by
  unfold KHost.biasRow
  exact shapeCast_a_1a_apply b shapeCasts_S128_S1x128 0 k

/-- THE FIRST REGION is the reference's first linear map. -/
theorem prod_eq (X : FVec Ideal S50000x11 .f32) (W : FVec Ideal S11x128 .f32) : Reg0.prod X W = ReferenceIdeal.RHost.lin1 X W := by
  funext i
  obtain ⟨r, q, rfl⟩ : ∃ (r : Fin 50000) (q : Fin 128), i = ix2 r q := ⟨i 0, i 1, eq_ix2 i⟩
  unfold Reg0.prod ReferenceIdeal.RHost.lin1
  rw [PlainMatmul.host_apply (d := ReferenceIdeal.dot_S50000x11_S11x128_S50000x128_1_0_0_1_n_n) ⟨rfl, rfl, rfl, rfl, rfl, rfl⟩ none X W r q]

/-- A COMBINING REGION followed by the product is the reference's contraction of the rectified combine. -/
theorem layer_eq (W : FVec Ideal S128x128 .f32) :
    Reg1.layer A B (KHost.selfScale dinv) (KHost.biasRow b) W
      = Host.dotGeneral ReferenceIdeal.dot_S50000x128_S128x128_S50000x128_1_0_0_1_n_n none
          (ReferenceIdeal.RHost.relu (combineR A B dinv b)) W := by
  funext i
  obtain ⟨r, q, rfl⟩ : ∃ (r : Fin 50000) (q : Fin 128), i = ix2 r q := ⟨i 0, i 1, eq_ix2 i⟩
  rw [PlainMatmul.host_apply (d := ReferenceIdeal.dot_S50000x128_S128x128_S50000x128_1_0_0_1_n_n) ⟨rfl, rfl, rfl, rfl, rfl, rfl⟩ none _ W r q]
  unfold Reg1.layer
  refine Finset.sum_congr rfl fun k _ => ?_
  show max (B (ix2 r k) + A (ix2 r k) * KHost.selfScale dinv (ix2 r (0 : Fin 1)) + KHost.biasRow b (ix2 (0 : Fin 1) k)) Reg1.zero32 * W (ix2 k q)
    = ReferenceIdeal.RHost.relu (combineR A B dinv b) (ix2 r k) * W (ix2 k q)
  rw [selfScale_at, biasRow_at]
  unfold ReferenceIdeal.RHost.relu
  simp only [maximumf_apply]
  rw [combineR_at]
  rfl

/-- The third region is the second with its names changed: the same function. -/
theorem layer2_eq : @Reg2.layer = @Reg1.layer := rfl

/-- THE LAST COMBINE is the reference's. -/
theorem comb_eq : Reg3.comb A B (KHost.selfScale dinv) (KHost.biasRow b) = combineR A B dinv b := by
  funext i
  obtain ⟨r, k, rfl⟩ : ∃ (r : Fin 50000) (k : Fin 128), i = ix2 r k := ⟨i 0, i 1, eq_ix2 i⟩
  rw [combineR_at]
  show B (ix2 r k) + A (ix2 r k) * KHost.selfScale dinv (ix2 r (0 : Fin 1)) + KHost.biasRow b (ix2 (0 : Fin 1) k) = _
  rw [selfScale_at, biasRow_at]

end Cert.Bridge

end
-- ==== Proof.LibScatterSet.lean ====
/-
  The scatter that writes a block of leading columns, read at one index.

  The operand is an `R × C` array `x`, the updates an `R × C'` array `U` with `C' ≤ C`, and the scatter has ONE
  scatter index, of one component — the start column, sent to operand axis 1 — while both axes of the updates are
  window axes, sent in order to the operand's two axes (none is inserted). When that one start column reads as the
  signed integer `0` and the body returns the update, update element `(r, c)` lands at operand element `(r, c)`:
  the scatter is `x` with its first `C'` columns replaced by `U`,

      scatter x U (r, c) = U (r, c)   if c < C',
                         = x (r, c)   otherwise.

  The proof has three parts. (1) A left fold of point updates `r ↦ (i' ↦ if i' = target n then value n else r i')`
  over a list, read at an index `i`: it is the start value when no `n` has target `i`, and `value n₀` when `n₀` is
  the only `n` with target `i` and occurs in the list. (2) For these dimension numbers every update index `j` has
  the result index `(j 0, j 1)`: the start is `0` on each axis (the index word reads `0`; an axis the map does not
  name starts at `0` anyway), the window coordinate on operand axis `a` is `j a`, and `j 1 < C' ≤ C` keeps it inside.
  (3) The map `j ↦ (j 0, j 1)` hits `(r, c)` exactly at `j = (r, c)` when `c < C'` and nowhere otherwise, and every
  row-major position occurs in the fold's list.
-/
import Idealize.ShloMosaic.Lib.ValueIdx

noncomputable section

namespace ScatterSet

open Idealize.ShloMosaic Idealize.ShloMosaic.ValueIdx

/-! ## A left fold of point updates, read at an index -/

/-- If no update's target is `i`, the fold leaves the value at `i` as it was. -/
theorem foldl_update_apply_of_forall_ne {ι β κ : Type} [DecidableEq ι] (tgt : κ → ι) (val : κ → β) (i : ι)
    (h : ∀ n, tgt n ≠ i) (L : List κ) (x : ι → β) :
    (L.foldl (fun r n => fun i' => if i' = tgt n then val n else r i') x) i = x i := by
  induction L generalizing x with
  | nil => rfl
  | cons a L ih =>
    rw [List.foldl_cons, ih]
    exact if_neg (fun e => h a e.symm)

/-- If `n₀` is the one update whose target is `i`, the fold's value at `i` is that update's value when `n₀` occurs
    in the list (however often: every occurrence writes the same value), and the start value when it does not. -/
theorem foldl_update_apply_of_unique {ι β κ : Type} [DecidableEq ι] [DecidableEq κ] (tgt : κ → ι) (val : κ → β)
    (i : ι) (n₀ : κ) (h : ∀ n, tgt n = i ↔ n = n₀) (L : List κ) (x : ι → β) :
    (L.foldl (fun r n => fun i' => if i' = tgt n then val n else r i') x) i = if n₀ ∈ L then val n₀ else x i := by
  induction L generalizing x with
  | nil => simp
  | cons a L ih =>
    rw [List.foldl_cons, ih]
    by_cases ha : a = n₀
    · subst ha
      have hi : i = tgt a := ((h a).2 rfl).symm
      simp [hi]
    · have hne : ¬ i = tgt a := fun e => ha ((h a).1 e.symm)
      have hmem : n₀ ∈ a :: L ↔ n₀ ∈ L := by
        rw [List.mem_cons]
        exact ⟨fun hh => hh.resolve_left (fun e => ha e.symm), Or.inr⟩
      simp only [hmem, if_neg hne]

/-! ## The dimension numbers: both update axes are window axes, no operand axis is inserted -/

variable {α : Type} {R C C' w : Nat}

/-- The dimension numbers' own conditions bound the updates' columns by the operand's: window axis 1 goes to
    operand axis 1, and is at most as long. -/
theorem le_of_dims (d : ScatterDims ⟨2, ![R, C]⟩ ⟨1, ![1]⟩ ⟨2, ![R, C']⟩)
    (huw : d.updateWindowDims = [0, 1]) (hins : d.insertedWindowDims = []) : C' ≤ C := by
  obtain ⟨uw, ins, sd, iv, wf⟩ := d
  simp only at huw hins
  subst huw hins
  have := ScatterDims.window_size ⟨[0, 1], [], sd, iv, wf⟩ ⟨1, Nat.one_lt_two⟩
  exact this

/-- The window coordinate on operand axis `a` is the update index's coordinate on the same axis: both operand
    axes are kept, and the window axes `[0, 1]` list them in order. -/
theorem window_eq (d : ScatterDims ⟨2, ![R, C]⟩ ⟨1, ![1]⟩ ⟨2, ![R, C']⟩)
    (huw : d.updateWindowDims = [0, 1]) (hins : d.insertedWindowDims = [])
    (j : (⟨2, ![R, C']⟩ : Shape).Idx) (a : Fin 2) : d.window j a = (j a).val := by
  obtain ⟨uw, ins, sd, iv, wf⟩ := d
  simp only at huw hins
  subst huw hins
  unfold ScatterDims.window
  match a with
  | ⟨0, _⟩ => rw [dif_pos (by simp [ScatterDims.sKept, Shape.kept])]; rfl
  | ⟨1, _⟩ => rw [dif_pos (by simp [ScatterDims.sKept, Shape.kept])]; rfl

/-- The window starts at `0` on every operand axis: every word of the scatter indices reads `0`, and an axis the
    scatter-dims-to-operand-dims map does not name starts at `0` by definition. -/
theorem start_eq_zero (d : ScatterDims ⟨2, ![R, C]⟩ ⟨1, ![1]⟩ ⟨2, ![R, C']⟩) (idx : IVec ⟨1, ![1]⟩ w)
    (hidx : ∀ i, (idx i).toInt = 0) (j : (⟨2, ![R, C']⟩ : Shape).Idx) (a : Fin 2) : d.start j idx a = 0 := by
  unfold ScatterDims.start
  split
  · exact hidx _
  · rfl

/-- The operand index an update index lands at: the same row, the same column. -/
def target (hC : C' ≤ C) (j : (⟨2, ![R, C']⟩ : Shape).Idx) : (⟨2, ![R, C]⟩ : Shape).Idx :=
  ix2 (n0 := R) (n1 := C) (j 0) ⟨(j 1).val, lt_of_lt_of_le (idx2_lt1 j) hC⟩

/-- The target is `(r, c)` exactly for the update index `(r, c)`, which exists only when `c < C'`. -/
theorem target_eq_iff (hC : C' ≤ C) (j : (⟨2, ![R, C']⟩ : Shape).Idx) (r : Fin R) (c : Fin C) :
    target hC j = ix2 r c ↔ ∃ h : c.val < C', j = ix2 r ⟨c.val, h⟩ := by
  constructor
  · intro e
    have e0 : (j 0 : Fin R) = r := congrFun e 0
    have e1 : (⟨(j 1).val, lt_of_lt_of_le (idx2_lt1 j) hC⟩ : Fin C) = c := congrFun e 1
    have hv : (j 1).val = c.val := congrArg Fin.val e1
    refine ⟨hv ▸ idx2_lt1 j, ?_⟩
    funext a
    match a with
    | ⟨0, _⟩ => exact e0
    | ⟨1, _⟩ => exact Fin.ext hv
  · rintro ⟨h, rfl⟩
    rfl

/-- Every update index has a result index, inside the operand: its target. -/
theorem resultIdx?_eq (d : ScatterDims ⟨2, ![R, C]⟩ ⟨1, ![1]⟩ ⟨2, ![R, C']⟩)
    (huw : d.updateWindowDims = [0, 1]) (hins : d.insertedWindowDims = []) (hC : C' ≤ C)
    (idx : IVec ⟨1, ![1]⟩ w) (hidx : ∀ i, (idx i).toInt = 0) (j : (⟨2, ![R, C']⟩ : Shape).Idx) :
    d.resultIdx? j idx = some (target hC j) := by
  have hval : ∀ a : Fin 2, d.start j idx a + (d.window j a : Int) = ((j a).val : Int) := by
    intro a; rw [start_eq_zero d idx hidx, window_eq d huw hins, Int.zero_add]
  have hcond : ∀ a : Fin 2, 0 ≤ d.start j idx a + (d.window j a : Int) ∧
      d.start j idx a + (d.window j a : Int) < ((⟨2, ![R, C]⟩ : Shape).size a : Int) := by
    intro a
    rw [hval a]
    refine ⟨Int.natCast_nonneg _, ?_⟩
    match a with
    | ⟨0, _⟩ => exact Int.ofNat_lt.mpr (idx2_lt0 j)
    | ⟨1, _⟩ => exact Int.ofNat_lt.mpr (lt_of_lt_of_le (idx2_lt1 j) hC)
  unfold ScatterDims.resultIdx?
  rw [dif_pos hcond]
  congr 1
  funext a
  refine Fin.ext ?_
  show (d.start j idx a + (d.window j a : Int)).toNat = _
  rw [hval a, Int.toNat_natCast]
  match a with
  | ⟨0, _⟩ => rfl
  | ⟨1, _⟩ => rfl

/-! ## The scatter read at an index -/

/-- THE SCATTER READ AT `(r, c)`: the update's element `(r, c)` in the first `C'` columns, the operand's elsewhere.
    The dimension numbers are any with window axes `[0, 1]` and no inserted axis (`huw`, `hins`: `rfl` at a
    literal record); the scatter indices are any whose every word reads as the signed integer `0`. -/
theorem scatter_set_cols_apply (d : ScatterDims ⟨2, ![R, C]⟩ ⟨1, ![1]⟩ ⟨2, ![R, C']⟩)
    (huw : d.updateWindowDims = [0, 1]) (hins : d.insertedWindowDims = [])
    (x : (⟨2, ![R, C]⟩ : Shape).Idx → α) (idx : IVec ⟨1, ![1]⟩ w) (hidx : ∀ i, (idx i).toInt = 0)
    (U : (⟨2, ![R, C']⟩ : Shape).Idx → α) (r : Fin R) (c : Fin C) :
    Host.scatter d (fun _ b => b) x idx U (ix2 r c) = if h : c.val < C' then U (ix2 r ⟨c.val, h⟩) else x (ix2 r c) := by
  have hC : C' ≤ C := le_of_dims d huw hins
  have hstep : Host.scatter d (fun _ b => b) x idx U =
      (List.finRange (⟨2, ![R, C']⟩ : Shape).numel).foldl
        (fun r n => fun i' => if i' = target hC ((⟨2, ![R, C']⟩ : Shape).rowMajor.symm n)
          then U ((⟨2, ![R, C']⟩ : Shape).rowMajor.symm n) else r i') x := by
    unfold Host.scatter
    congr 1
    funext r n
    rw [resultIdx?_eq d huw hins hC idx hidx]
  rw [hstep]
  by_cases h : c.val < C'
  · rw [dif_pos h]
    rw [foldl_update_apply_of_unique (fun n => target hC ((⟨2, ![R, C']⟩ : Shape).rowMajor.symm n))
      (fun n => U ((⟨2, ![R, C']⟩ : Shape).rowMajor.symm n)) (ix2 r c)
      ((⟨2, ![R, C']⟩ : Shape).rowMajor (ix2 r ⟨c.val, h⟩))]
    · rw [if_pos (List.mem_finRange _), Equiv.symm_apply_apply]
    · intro n
      rw [target_eq_iff, ← Equiv.symm_apply_eq]
      exact ⟨fun ⟨_, e⟩ => e, fun e => ⟨h, e⟩⟩
  · rw [dif_neg h]
    refine foldl_update_apply_of_forall_ne (fun n => target hC ((⟨2, ![R, C']⟩ : Shape).rowMajor.symm n))
      (fun n => U ((⟨2, ![R, C']⟩ : Shape).rowMajor.symm n)) (ix2 r c) ?_ _ x
    intro n e
    exact h ((target_eq_iff hC _ r c).1 e).1

end ScatterSet

end
-- ==== Proof.BridgeHead.lean ====
/-
  The fifth region with its zero-padded classifier, cut back to 19 columns, is the reference's mean pool and
  classifier.

  The kernel pads the `128 × 19` weights and the 19 biases with zero columns up to 128, computes
  `(∑ k, (Σ (g, k) / max (n (g), 1)) · W' (k, q)) + b' (q)` for all 128 columns `q`, and keeps the first 19.  For
  `q < 19` the padded arrays hold the unpadded entries, so the kept columns are
  `(∑ k, (Σ (g, k) / max (n (g), 1)) · W (k, q)) + b (q)`: the reference's quotient, contraction and bias.
-/
import proofs.«105139_j5488968204991_2_alg».proof.Proof.KernelHost
import proofs.«105139_j5488968204991_2_alg».proof.Proof.RefTerm
import proofs.«105139_j5488968204991_2_alg».proof.Proof.Region4
import proofs.«105139_j5488968204991_2_alg».proof.Proof.LibDot
import proofs.«105139_j5488968204991_2_alg».proof.Proof.LibRowBroadcast
import proofs.«105139_j5488968204991_2_alg».proof.Proof.LibScatterSet
import Idealize.ShloMosaic.Lib.ValueLayout
import Idealize.ShloMosaic.Lib.ValueIdx
import Idealize.ShloMosaic.Lib.Pipeline.Value

set_option maxRecDepth 16384

noncomputable section

open scoped BigOperators

namespace Cert.Bridge

open Cert.KernelIdeal Cert.KernelIdeal.Gen
open Idealize.ShloMosaic Idealize.ShloMosaic.ValueIdx

/-- The one scatter index of a padding is the word zero, which reads as the integer zero. -/
theorem start_zero (i : S1.Idx) : ((broadcastInDim S1 ![] bcast_S_S1 (constantI S_ 32 0#32) : IVec S1 32) i).toInt = 0 := by
  rw [broadcastInDim_apply ![] bcast_S_S1 (constantI S_ 32 0#32) i ix0 (fun a => a.elim0)]
  rfl

/-- The padded weights hold the weights in their first 19 columns … -/
theorem padW_at (Wl : FVec Ideal S128x19 .f32) (k : Fin 128) (q : Fin 19) :
    KHost.padW Wl (ix2 k (⟨q.val, by omega⟩ : Fin 128)) = Wl (ix2 k q) := by
  unfold KHost.padW
  rw [ScatterSet.scatter_set_cols_apply scatter_S128x128_S1_S128x19_01_n_1_0 rfl rfl _ _ start_zero Wl k ⟨q.val, by omega⟩]
  rw [dif_pos (show (⟨q.val, by omega⟩ : Fin 128).val < 19 from q.isLt)]

/-- … and the padded bias the bias. -/
theorem padB_at (bl : FVec Ideal S19 .f32) (q : Fin 19) :
    KHost.padB bl (ix2 (0 : Fin 1) (⟨q.val, by omega⟩ : Fin 128)) = bl (ix1 q) := by
  unfold KHost.padB
  rw [ScatterSet.scatter_set_cols_apply scatter_S1x128_S1_S1x19_01_n_1_0 rfl rfl _ _ start_zero _ 0 ⟨q.val, by omega⟩]
  rw [dif_pos (show (⟨q.val, by omega⟩ : Fin 128).val < 19 from q.isLt)]
  exact shapeCast_a_1a_apply bl shapeCasts_S19_S1x19 0 q

/-- The kept columns are the padded result's own. -/
theorem cut_at (Y : FVec Ideal S2048x128 .f32) (g : Fin 2048) (q : Fin 19) :
    KHost.cut Y (ix2 g q) = Y (ix2 g (⟨q.val, by omega⟩ : Fin 128)) := by
  unfold KHost.cut
  refine extractStridedSlice_apply ![0, 0] Y slices_S2048x128_S2048x19_0_0 (ix2 g q) (ix2 g (⟨q.val, by omega⟩ : Fin 128)) fun a => ?_
  match a with
  | ⟨0, _⟩ => show g.val = 0 + g.val; omega
  | ⟨1, _⟩ => show q.val = 0 + q.val; omega

/-- The kernel's counts are the reference's, as a column. -/
theorem counts_eq (batch : IVec S50000 32) :
    KHost.counts batch = shapeCast S2048x1 (ReferenceIdeal.RHost.counts batch) shapeCasts_S2048_S2048x1 := rfl

/-- The kernel's per-graph sums are the reference's. -/
theorem sums_eq (batch : IVec S50000 32) (h : FVec Ideal S50000x128 .f32) : KHost.sums batch h = ReferenceIdeal.RHost.sums batch h := rfl

/-- THE HEAD: pool, padded classifier and cut on one side; quotient, contraction and bias on the other. -/
theorem head_eq (Sm : FVec Ideal S2048x128 .f32) (cnt : FVec Ideal S2048 .f32) (Wl : FVec Ideal S128x19 .f32) (bl : FVec Ideal S19 .f32) :
    KHost.cut (Reg4.pool Sm (shapeCast S2048x1 cnt shapeCasts_S2048_S2048x1) (KHost.padW Wl) (KHost.padB bl))
      = ReferenceIdeal.RHost.head Wl bl Sm cnt := by
  funext i
  obtain ⟨g, q, rfl⟩ : ∃ (g : Fin 2048) (q : Fin 19), i = ix2 g q := ⟨i 0, i 1, eq_ix2 i⟩
  rw [cut_at]
  unfold ReferenceIdeal.RHost.head
  simp only [addf_apply]
  rw [PlainMatmul.host_apply (d := ReferenceIdeal.dot_S2048x128_S128x19_S2048x19_1_0_0_1_n_n) ⟨rfl, rfl, rfl, rfl, rfl, rfl⟩ none _ Wl g q,
    RowBroadcast.cols_apply]
  show (∑ k : Fin 128, Ideal.div (Sm (ix2 g k)) (max (shapeCast S2048x1 cnt shapeCasts_S2048_S2048x1 (ix2 g (0 : Fin 1))) Reg4.one32)
        * KHost.padW Wl (ix2 k (⟨q.val, by omega⟩ : Fin 128)))
      + KHost.padB bl (ix2 (0 : Fin 1) (⟨q.val, by omega⟩ : Fin 128)) = _
  rw [padB_at, RowBroadcast.reshape_col_apply]
  refine congrArg (· + bl (ix1 q)) (Finset.sum_congr rfl fun k _ => ?_)
  rw [padW_at]
  refine congrArg (· * Wl (ix2 k q)) ?_
  show _ = Ideal.div (Sm (ix2 g k)) (broadcastInDim S2048x128 ![0, 1] ReferenceIdeal.Gen.bcast_S2048x1_S2048x128_0_1
    (broadcastInDim S2048x1 ![0] ReferenceIdeal.Gen.bcast_S2048_S2048x1_0
      (maximumf cnt (broadcastInDim S2048 ![] ReferenceIdeal.Gen.bcast_S_S2048 (constant S_ .f32 0x3F800000#32)))) (ix2 g k))
  rw [RowBroadcast.rows_apply]
  rfl

end Cert.Bridge

end
-- ==== Proof.BridgeOut.lean ====
/-
  The two idealized programs compute one function of their arguments.

  Layer by layer: the first region's product is the reference's first linear map; each aggregate is the reference's
  (associativity of the product); each combining region is the reference's combine, rectifier and next linear map; the
  last combine is the reference's; and the pooled, padded, cut classifier is the reference's head.
-/
import proofs.«105139_j5488968204991_2_alg».proof.Proof.KernelFold
import proofs.«105139_j5488968204991_2_alg».proof.Proof.BridgeMsg
import proofs.«105139_j5488968204991_2_alg».proof.Proof.BridgeLayer
import proofs.«105139_j5488968204991_2_alg».proof.Proof.BridgeHead

set_option maxRecDepth 16384

noncomputable section

namespace Cert.Bridge

open Cert.KernelIdeal Cert.KernelIdeal.Gen
open Idealize.ShloMosaic

variable (x : FVec Ideal S50000x11 .f32) (ei : IVec S2x800000 32) (batch : IVec S50000 32)
  (W1 : FVec Ideal S11x128 .f32) (b1 : FVec Ideal S128 .f32) (W2 : FVec Ideal S128x128 .f32) (b2 : FVec Ideal S128 .f32)
  (W3 : FVec Ideal S128x128 .f32) (b3 : FVec Ideal S128 .f32) (Wl : FVec Ideal S128x19 .f32) (bl : FVec Ideal S19 .f32)

/-- The kernel's aggregate of any node array is the reference's. -/
theorem aggOf_eq (h : FVec Ideal S50000x128 .f32) :
    KFold.aggOf ei h = ReferenceIdeal.RHost.agg h (ReferenceIdeal.RHost.degInv (ReferenceIdeal.RHost.dst ei))
      (ReferenceIdeal.RHost.src ei) (ReferenceIdeal.RHost.dst ei) :=
  agg_eq h (KHost.degInv (KHost.dst ei)) (KHost.src ei) (KHost.dst ei)

theorem lin1_eq : KFold.lin1 x W1 = ReferenceIdeal.RHost.lin1 x W1 := prod_eq x W1

theorem lin2_eq : KFold.lin2 x ei W1 b1 W2 = ReferenceIdeal.RHost.lin2 x ei W1 b1 W2 := by
  unfold KFold.lin2 KFold.scaleOf ReferenceIdeal.RHost.lin2
  rw [lin1_eq, layer_eq, aggOf_eq, conv_eq]
  rfl

theorem lin3_eq : KFold.lin3 x ei W1 b1 W2 b2 W3 = ReferenceIdeal.RHost.lin3 x ei W1 b1 W2 b2 W3 := by
  unfold KFold.lin3 KFold.scaleOf ReferenceIdeal.RHost.lin3
  rw [lin2_eq, layer2_eq, layer_eq, aggOf_eq, conv_eq]
  rfl

theorem feat_eq : KFold.feat x ei W1 b1 W2 b2 W3 b3 = ReferenceIdeal.RHost.feat x ei W1 b1 W2 b2 W3 b3 := by
  unfold KFold.feat KFold.scaleOf ReferenceIdeal.RHost.feat
  rw [lin3_eq, comb_eq, aggOf_eq, conv_eq]
  rfl

/-- THE RESULTS AGREE. -/
theorem out_eq : KFold.kOut x ei batch W1 b1 W2 b2 W3 b3 Wl bl = ReferenceIdeal.RHost.out x ei batch W1 b1 W2 b2 W3 b3 Wl bl := by
  unfold KFold.kOut ReferenceIdeal.RHost.out
  rw [feat_eq, counts_eq, sums_eq, head_eq]

end Cert.Bridge

end
-- ==== Proof.lean ====
/-
  A three-layer graph convolution network with a mean pool and a linear classifier, 50000 nodes, 800000 edges, 2048
  graphs: the tiled kernel program against the plain reference, at the ideal instance.

  The kernel program runs five grid regions — the first linear map; twice a combine (aggregate + self-loop + bias, then
  the rectifier) fused with the next linear map; the last combine; the pool's quotient with the classifier — among host
  stretches that compute the degree normalisation, the three edge aggregates (gather, scale, sum into destinations), the
  per-graph sums and counts, and the zero-padding of the classifier to 128 columns, and finally cut 19 columns out.  The
  reference computes the same network with whole-array operations.

  At the ideal instance a change of float format is the identity and every sum is exact, so the two programs differ
  only in three ways, none of which changes the value: the kernel scales a node's row by its normalisation before
  gathering it along an edge and by the destination's normalisation afterwards, where the reference multiplies the
  gathered row by the product of the two (the product of extended reals is associative); the kernel computes its
  matrix products block of rows by block of rows, where the reference contracts whole arrays (entry by entry the same
  sum); and the kernel pads the classifier with zero columns that it then cuts away.

  The three frames: the two kernel programs' are the generated frame certificates; the reference has no kernel, and its
  frame is its run with the result dropped.  No operation was rewritten by the idealization, so there is nothing to
  preserve.  The value claim: the kernel program's run keeps the result buffer at the end of the fold of its segments
  (KernelRun), that fold is one function of the arguments (KernelFold, over the five regions' closed forms and the host
  stretches' pure functions), the reference's run ends at its operations' composed term, which is one function of the
  arguments (RefTerm), and the two functions are equal (BridgeMsg, BridgeLayer, BridgeHead, BridgeOut).
-/
import proofs.«105139_j5488968204991_2_alg».proof.Defs
import proofs.«105139_j5488968204991_2_alg».proof.Proof.Gen.Kernel
import proofs.«105139_j5488968204991_2_alg».proof.Proof.Gen.Kernel.Skeleton
import proofs.«105139_j5488968204991_2_alg».proof.Proof.Gen.Kernel.Launch
import proofs.«105139_j5488968204991_2_alg».proof.Proof.Gen.Kernel.Points
import proofs.«105139_j5488968204991_2_alg».proof.Proof.Gen.Kernel.Frame
import proofs.«105139_j5488968204991_2_alg».proof.Proof.Gen.KernelIdeal
import proofs.«105139_j5488968204991_2_alg».proof.Proof.Gen.KernelIdeal.Skeleton
import proofs.«105139_j5488968204991_2_alg».proof.Proof.Gen.KernelIdeal.Launch
import proofs.«105139_j5488968204991_2_alg».proof.Proof.Gen.KernelIdeal.Points
import proofs.«105139_j5488968204991_2_alg».proof.Proof.Gen.KernelIdeal.Frame
import proofs.«105139_j5488968204991_2_alg».proof.Proof.Gen.ReferenceIdeal
import proofs.«105139_j5488968204991_2_alg».proof.Proof.Gen.ReferenceIdeal.Run
import proofs.«105139_j5488968204991_2_alg».proof.Proof.Gen.ReferenceIdeal.Read
import proofs.«105139_j5488968204991_2_alg».proof.Proof.Gen.Pre_finite_inputs
import proofs.«105139_j5488968204991_2_alg».proof.Proof.KernelRun
import proofs.«105139_j5488968204991_2_alg».proof.Proof.KernelFold
import proofs.«105139_j5488968204991_2_alg».proof.Proof.RefTerm
import proofs.«105139_j5488968204991_2_alg».proof.Proof.BridgeOut
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the eleven arguments both programs end at the one function of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KFold.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · -- the kernel program: its run keeps the result at the end of the fold, which is that function
    exact (θ_run Cert.KernelIdeal.defs _ _).mono
      (fun r h c => ⟨(h c).1.trans (Cert.KernelIdeal.KFold.result_at m ρ c), (h c).2⟩)
      (Cert.KernelIdeal.KRun.run_result (F := Ideal) m ρ)
  · -- the reference: its run ends at its composed term, which is the same function of the agreeing arguments
    refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v153_eq, Cert.ReferenceIdeal.RHost.val_eq, e0, e1, e2, e3, e4, e5, e6, e7, e8, e9, e10]
    exact (Cert.Bridge.out_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
